-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3 : Shape := ⟨2, ![32768, 3]⟩
abbrev S32768x1 : Shape := ⟨2, ![32768, 1]⟩
abbrev S32768 : Shape := ⟨1, ![32768]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_

variable [Facts]

def fn {F : FTy → Type} [FloatOps F] (main_arg0 : FVec F S32768x3 .f32) (main_arg1 : FVec F S32768x1 .f32) (main_arg2 : IVec S32768 32) : IVec S_ 1 :=
  let main_v0 : FVec F S32768x3 .f32 := Host.absf main_arg0
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  main_v8
-- ==== Kernel.lean ====
abbrev S32768x3 : Shape := ⟨2, ![32768, 3]⟩
abbrev S32768x1 : Shape := ⟨2, ![32768, 1]⟩
abbrev S32768 : Shape := ⟨1, ![32768]⟩
abbrev S16x2048x3 : Shape := ⟨3, ![16, 2048, 3]⟩
abbrev S16x2048x1 : Shape := ⟨3, ![16, 2048, 1]⟩
abbrev S16x2048 : Shape := ⟨2, ![16, 2048]⟩
abbrev S16x128x3 : Shape := ⟨3, ![16, 128, 3]⟩
abbrev S16x128x1 : Shape := ⟨3, ![16, 128, 1]⟩
abbrev S16x128 : Shape := ⟨2, ![16, 128]⟩
abbrev S16x1x128 : Shape := ⟨3, ![16, 1, 128]⟩
abbrev S16x128x128 : Shape := ⟨3, ![16, 128, 128]⟩
abbrev S128x128 : Shape := ⟨2, ![128, 128]⟩
abbrev S1x128x128 : Shape := ⟨3, ![1, 128, 128]⟩
abbrev S_ : Shape := ⟨0, ![]⟩
abbrev S16 : Shape := ⟨1, ![16]⟩

abbrev nBuf : Space → Nat
  | .hbm => 14
  | .vmem => 8
  | .smem => 0
  | _ => 0

abbrev bufTy : (tb : Table) → Fin (tcTables nBuf tb) → BufTy
  | .hbm, ⟨0, _⟩ => ⟨S32768x3, .f32⟩
  | .hbm, ⟨1, _⟩ => ⟨S32768x1, .f32⟩
  | .hbm, ⟨2, _⟩ => ⟨S32768, .i32⟩
  | .hbm, ⟨3, _⟩ => ⟨S16x2048x3, .f32⟩
  | .hbm, ⟨4, _⟩ => ⟨S16x2048x1, .f32⟩
  | .hbm, ⟨5, _⟩ => ⟨S16x2048, .f32⟩
  | .hbm, ⟨6, _⟩ => ⟨S32768x1, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .local _ .vmem, ⟨0, _⟩ => ⟨S16x128x3, .f32⟩
  | .local _ .vmem, ⟨1, _⟩ => ⟨S16x128x3, .f32⟩
  | .local _ .vmem, ⟨2, _⟩ => ⟨S16x128x3, .f32⟩
  | .local _ .vmem, ⟨3, _⟩ => ⟨S16x128x3, .f32⟩
  | .local _ .vmem, ⟨4, _⟩ => ⟨S16x128x1, .f32⟩
  | .local _ .vmem, ⟨5, _⟩ => ⟨S16x128x1, .f32⟩
  | .local _ .vmem, ⟨6, _⟩ => ⟨S16x128, .f32⟩
  | .local _ .vmem, ⟨7, _⟩ => ⟨S16x128, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32768x3_S16x2048x3 : S32768x3.ShapeCasts S16x2048x3
  shapeCasts_S32768x1_S16x2048x1 : S32768x1.ShapeCasts S16x2048x1
  inb_S16x128_S16x128_0_0 : ∀ a, (![0, 0] : Fin 2 → Nat) a + S16x128.size a ≤ S16x128.size a
  h_S16x128 : 0 < S16x128.numel
  inb_S16x128x3_S16x128x3_0_0_0 : ∀ a, (![0, 0, 0] : Fin 3 → Nat) a + S16x128x3.size a ≤ S16x128x3.size a
  h_S16x128x3 : 0 < S16x128x3.numel
  shapeCasts_S16x128x3_S16x128x3 : S16x128x3.ShapeCasts S16x128x3
  inb_S16x128x1_S16x128x1_0_0_0 : ∀ a, (![0, 0, 0] : Fin 3 → Nat) a + S16x128x1.size a ≤ S16x128x1.size a
  h_S16x128x1 : 0 < S16x128x1.numel
  shapeCasts_S16x128x1_S16x128x1 : S16x128x1.ShapeCasts S16x128x1
  slices_S16x128x3_o0_0_0_S16x128x1 : S16x128x3.Slices ![0, 0, 0] S16x128x1
  shapeCasts_S16x128x1_S16x128 : S16x128x1.ShapeCasts S16x128
  slices_S16x128x3_o0_0_1_S16x128x1 : S16x128x3.Slices ![0, 0, 1] S16x128x1
  slices_S16x128x3_o0_0_2_S16x128x1 : S16x128x3.Slices ![0, 0, 2] S16x128x1
  shapeCasts_S16x128_S16x128x1 : S16x128.ShapeCasts S16x128x1
  shapeCasts_S16x128_S16x1x128 : S16x128.ShapeCasts S16x1x128
  broadcasts_S16x128x1_S16x128x128 : S16x128x1.Broadcasts S16x128x128
  broadcasts_S16x1x128_S16x128x128 : S16x1x128.Broadcasts S16x128x128
  iota_S128x128_d0_w32 : S128x128.Iotas .tc 32 [0]
  iota_S128x128_d1_w32 : S128x128.Iotas .tc 32 [1]
  natLt_1_32 : 1 < 32
  shapeCasts_S128x128_S1x128x128 : S128x128.ShapeCasts S1x128x128
  broadcasts_S1x128x128_S16x128x128 : S1x128x128.Broadcasts S16x128x128
  reduces_S16x128x128_S16x128 : S16x128x128.Reduces [1] S16x128
  shapeCasts_S16x128_S16x128 : S16x128.ShapeCasts S16x128
  shapeCasts_S16x2048_S32768x1 : S16x2048.ShapeCasts S32768x1
  shapeCasts_S16x2048x1_S16x2048 : S16x2048x1.ShapeCasts S16x2048
  reducesTo_S16x2048_S16_d1 : S16x2048.ReducesTo [1] S16
  h_S_ : 0 < S_.numel
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x3.size a ≤ S16x2048x3.size a
  hwx0_0 : ∀ i : grid0.Coords, EltTy.bits .f32 = 32 ∨ (Rect.block (s := S16x2048x3) S16x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x3.size a ≤ S16x2048x3.size a
  hwx0_1 : ∀ i : grid0.Coords, EltTy.bits .f32 = 32 ∨ (Rect.block (s := S16x2048x3) S16x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128x1.size a ≤ S16x2048x1.size a
  hwx0_2 : ∀ i : grid0.Coords, EltTy.bits .f32 = 32 ∨ (Rect.block (s := S16x2048x1) S16x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x2048.size a
  hwx0_3 : ∀ i : grid0.Coords, EltTy.bits .f32 = 32 ∨ (Rect.block (s := S16x2048) S16x128.size (cc0_transform_3 i) (hinb0_3 i)).WholeWords (EltTy.packing .f32)

variable [Facts₀]

abbrev win0_0 : Pipeline.Window sig grid0 :=
  Pipeline.Window.ofSpec (Memref.whole main_v0) S16x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x3 : Shape := ⟨2, ![32768, 3]⟩
abbrev S32768x1 : Shape := ⟨2, ![32768, 1]⟩
abbrev S32768 : Shape := ⟨1, ![32768]⟩
abbrev S16x2048x3 : Shape := ⟨3, ![16, 2048, 3]⟩
abbrev S16x2048x1 : Shape := ⟨3, ![16, 2048, 1]⟩
abbrev S16x2048x1x3 : Shape := ⟨4, ![16, 2048, 1, 3]⟩
abbrev S16x1x2048x3 : Shape := ⟨4, ![16, 1, 2048, 3]⟩
abbrev S16x2048x2048x3 : Shape := ⟨4, ![16, 2048, 2048, 3]⟩
abbrev S_ : Shape := ⟨0, ![]⟩
abbrev S16x2048x2048 : Shape := ⟨3, ![16, 2048, 2048]⟩
abbrev S16x2048x2048x1 : Shape := ⟨4, ![16, 2048, 2048, 1]⟩
abbrev S2048x2048 : Shape := ⟨2, ![2048, 2048]⟩
abbrev S2048x2048x1 : Shape := ⟨3, ![2048, 2048, 1]⟩
abbrev S16x2048x1x1 : Shape := ⟨4, ![16, 2048, 1, 1]⟩
abbrev S16x1x2048x1 : Shape := ⟨4, ![16, 1, 2048, 1]⟩
abbrev S1x2048x2048x1 : Shape := ⟨4, ![1, 2048, 2048, 1]⟩
abbrev S16x1 : Shape := ⟨2, ![16, 1]⟩
abbrev S16 : Shape := ⟨1, ![16]⟩

abbrev nBuf : Space → Nat
  | .hbm => 57
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x1, .f32⟩
  | .hbm, ⟨2, _⟩ => ⟨S32768, .i32⟩
  | .hbm, ⟨3, _⟩ => ⟨S16x2048x3, .f32⟩
  | .hbm, ⟨4, _⟩ => ⟨S16x2048x1, .f32⟩
  | .hbm, ⟨5, _⟩ => ⟨S16x2048x1x3, .f32⟩
  | .hbm, ⟨6, _⟩ => ⟨S16x1x2048x3, .f32⟩
  | .hbm, ⟨7, _⟩ => ⟨S16x2048x2048x3, .f32⟩
  | .hbm, ⟨8, _⟩ => ⟨S16x2048x2048x3, .f32⟩
  | .hbm, ⟨9, _⟩ => ⟨S16x2048x2048x3, .f32⟩
  | .hbm, ⟨10, _⟩ => ⟨S16x2048x2048x3, .f32⟩
  | .hbm, ⟨11, _⟩ => ⟨S_, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x2048x1, .f32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048x1, .f32⟩
  | .hbm, ⟨32, _⟩ => ⟨S16x2048x1x1, .f32⟩
  | .hbm, ⟨33, _⟩ => ⟨S16x1x2048x1, .f32⟩
  | .hbm, ⟨34, _⟩ => ⟨S16x2048x2048x1, .f32⟩
  | .hbm, ⟨35, _⟩ => ⟨S16x2048x2048x1, .f32⟩
  | .hbm, ⟨36, _⟩ => ⟨S16x2048x2048x1, .f32⟩
  | .hbm, ⟨37, _⟩ => ⟨S16x2048x2048x1, .f32⟩
  | .hbm, ⟨38, _⟩ => ⟨S1x2048x2048x1, .f32⟩
  | .hbm, ⟨39, _⟩ => ⟨S16x2048x2048x1, .f32⟩
  | .hbm, ⟨40, _⟩ => ⟨S16x2048x2048x1, .f32⟩
  | .hbm, ⟨41, _⟩ => ⟨S_, .f32⟩
  | .hbm, ⟨42, _⟩ => ⟨S16x1, .f32⟩
  | .hbm, ⟨43, _⟩ => ⟨S_, .f32⟩
  | .hbm, ⟨44, _⟩ => ⟨S16x1, .f32⟩
  | .hbm, ⟨45, _⟩ => ⟨S16x1, .f32⟩
  | .hbm, ⟨46, _⟩ => ⟨S_, .f32⟩
  | .hbm, ⟨47, _⟩ => ⟨S16, .f32⟩
  | .hbm, ⟨48, _⟩ => ⟨S16x2048x1x1, .f32⟩
  | .hbm, ⟨49, _⟩ => ⟨S16x2048x2048x1, .f32⟩
  | .hbm, ⟨50, _⟩ => ⟨S16x2048x2048x1, .f32⟩
  | .hbm, ⟨51, _⟩ => ⟨S1x2048x2048x1, .f32⟩
  | .hbm, ⟨52, _⟩ => ⟨S16x2048x2048x1, .f32⟩
  | .hbm, ⟨53, _⟩ => ⟨S16x2048x2048x1, .f32⟩
  | .hbm, ⟨54, _⟩ => ⟨S_, .f32⟩
  | .hbm, ⟨55, _⟩ => ⟨S16x2048x1, .f32⟩
  | .hbm, ⟨56, _⟩ => ⟨S32768x1, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  shapeCasts_S32768x3_S16x2048x3 : S32768x3.ShapeCasts S16x2048x3
  shapeCasts_S32768x1_S16x2048x1 : S32768x1.ShapeCasts S16x2048x1
  bcast_S16x2048x3_S16x2048x1x3_0_1_3 : S16x2048x3.BroadcastsInDim S16x2048x1x3 (![0, 1, 3] : Fin 3 → Fin S16x2048x1x3.rank)
  bcast_S16x2048x3_S16x1x2048x3_0_2_3 : S16x2048x3.BroadcastsInDim S16x1x2048x3 (![0, 2, 3] : Fin 3 → Fin S16x1x2048x3.rank)
  bcast_S16x2048x1x3_S16x2048x2048x3_0_1_2_3 : S16x2048x1x3.BroadcastsInDim S16x2048x2048x3 (![0, 1, 2, 3] : Fin 4 → Fin S16x2048x2048x3.rank)
  bcast_S16x1x2048x3_S16x2048x2048x3_0_1_2_3 : S16x1x2048x3.BroadcastsInDim S16x2048x2048x3 (![0, 1, 2, 3] : Fin 4 → Fin S16x2048x2048x3.rank)
  reducesTo_S16x2048x2048x3_S16x2048x2048_d3 : S16x2048x2048x3.ReducesTo [3] S16x2048x2048
  h_S_ : 0 < S_.numel
  bcast_S_S16x2048x2048 : S_.BroadcastsInDim S16x2048x2048 (![] : Fin 0 → Fin S16x2048x2048.rank)
  bcast_S16x2048x2048_S16x2048x2048x1_0_1_2 : S16x2048x2048.BroadcastsInDim S16x2048x2048x1 (![0, 1, 2] : Fin 3 → Fin S16x2048x2048x1.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S16x2048x1_S16x2048x1x1_0_1_3 : S16x2048x1.BroadcastsInDim S16x2048x1x1 (![0, 1, 3] : Fin 3 → Fin S16x2048x1x1.rank)
  bcast_S16x2048x1_S16x1x2048x1_0_2_3 : S16x2048x1.BroadcastsInDim S16x1x2048x1 (![0, 2, 3] : Fin 3 → Fin S16x1x2048x1.rank)
  bcast_S16x2048x1x1_S16x2048x2048x1_0_1_2_3 : S16x2048x1x1.BroadcastsInDim S16x2048x2048x1 (![0, 1, 2, 3] : Fin 4 → Fin S16x2048x2048x1.rank)
  bcast_S16x1x2048x1_S16x2048x2048x1_0_1_2_3 : S16x1x2048x1.BroadcastsInDim S16x2048x2048x1 (![0, 1, 2, 3] : Fin 4 → Fin S16x2048x2048x1.rank)
  bcast_S2048x2048x1_S1x2048x2048x1_1_2_3 : S2048x2048x1.BroadcastsInDim S1x2048x2048x1 (![1, 2, 3] : Fin 3 → Fin S1x2048x2048x1.rank)
  bcast_S1x2048x2048x1_S16x2048x2048x1_0_1_2_3 : S1x2048x2048x1.BroadcastsInDim S16x2048x2048x1 (![0, 1, 2, 3] : Fin 4 → Fin S16x2048x2048x1.rank)
  reducesTo_S16x2048x2048x1_S16x1_d1_2 : S16x2048x2048x1.ReducesTo [1, 2] S16x1
  bcast_S_S16x1 : S_.BroadcastsInDim S16x1 (![] : Fin 0 → Fin S16x1.rank)
  reducesTo_S16x1_S16_d1 : S16x1.ReducesTo [1] S16
  reducesTo_S16x2048x2048x1_S16x2048x1_d1 : S16x2048x2048x1.ReducesTo [1] S16x2048x1
  shapeCasts_S16x2048x1_S32768x1 : S16x2048x1.ShapeCasts S32768x1

variable [Facts₀]

class Facts : Prop extends Facts₀ where

variable [Facts]
-- ==== Proof.Kernel.Setting.lean ====
/-
  The field kernel's region as the pipeline runs it: what the arrays hold when the region is entered (the two
  reshapes of @main), each window's block at a grid point, the one condition of the body (the inner grid
  coordinate is zero: the accumulator is reset there), and the staging buffers the body is called with.

  The grid is 16 × 16, point t = (t / 16, t % 16): the outer coordinate picks the 128 target atoms j whose field is
  accumulated, the inner one the 128 source atoms i added at this point.  Windows 0 and 2 (positions and charges of
  the sources) move with the inner coordinate, window 1 (positions of the targets) and the output window 3 with
  the outer one.
-/
import proofs.«137582_j57114475102292_1_alg».proof.Proof.Gen.Kernel.Launch
import proofs.«137582_j57114475102292_1_alg».proof.Proof.Gen.Kernel.Skeleton
import proofs.«137582_j57114475102292_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two reshapes, the region, and the eight later host operations: it reduces to the region continued by
    the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (List.forall_iff_forall_mem.mpr fun ops ho => by
      simp only [List.mem_cons, List.mem_nil_iff, or_false] at ho; subst ho; exact hostOps0_sub)
    (List.forall_iff_forall_mem.mpr fun ops ho => by
      simp only [List.mem_cons, List.mem_nil_iff, or_false] at ho; subst ho; exact hostOps0_fresh)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not
    fetched its block index has not moved), for any proof data whose array is `V`'s and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's condition -/

/-- The body resets the accumulator when the inner grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging buffers -/

/-- One staging buffer of the output window, through which its contents are stated. -/
abbrev VO0_3 : View sig .tc .vmem S16x128 .f32 := (Memref.whole cc0_stg3_0 : Memref sig .tc .vmem S16x128 .f32).view
/-- Each window's current staging memref at point `t`, as the pipeline passes it, and its wholeness. -/
abbrev ms0_0 (t : Fin cfg0.N) : Memref sig .tc .vmem S16x128x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

end Cert.Kernel.Hand

end
-- ==== Proof.Kernel.CaseReset.lean ====
/-
  The body at a point whose inner grid coordinate is zero: it first stores zeros over the whole accumulator buffer,
  then loads the three input blocks and the (now zero) accumulator and stores the accumulator plus this point's
  sum over the 128 sources.  Stated as a triple on any whole staging buffers: the inputs come back as they were,
  the output buffer ends with the list of stores the run made (found by the run itself).
-/
import proofs.«137582_j57114475102292_1_alg».proof.Proof.Kernel.Setting

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the accumulator is reset: the output buffer's final stores, with the proof that the body
    runs from whole staging buffers — the inputs at `x0`, `x1`, `x2`, the output at anything — to the continuation. -/
noncomputable def kernelRun0_A (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) :
    { L3 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__field_kernel i arg2 harg2 arg3 harg3 arg4 harg4 arg5 harg5) K } := by
  refine ⟨?_, fun E K => ?run⟩
  case run =>
    simp only [cc0__field_kernel_eq_skeleton]; unfold cc0__field_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.Kernel.CaseAdd.lean ====
/-
  The body at a point whose inner grid coordinate is not zero: it loads the three input blocks and the running
  accumulator `xo` and stores `xo` plus this point's sum over the 128 sources.  Stated as a triple on any whole
  staging buffers: the inputs come back as they were, the output buffer ends with the store the run made.
-/
import proofs.«137582_j57114475102292_1_alg».proof.Proof.Kernel.CaseReset

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the accumulator is carried: the output buffer's final stores, with the proof that the body
    runs from whole staging buffers — the inputs at `x0`, `x1`, `x2`, the output at `xo` — to the continuation. -/
noncomputable def kernelRun0_B (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) :
    { L3 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__field_kernel i arg2 harg2 arg3 harg3 arg4 harg4 arg5 harg5) K } := by
  refine ⟨?_, fun E K => ?run⟩
  case run =>
    simp only [cc0__field_kernel_eq_skeleton]; unfold cc0__field_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.Kernel.Acc.lean ====
/-
  What the output window's staging buffer holds after each grid point, the pipeline's proof data, and the body
  obligation at every point.

  After point t the buffer holds: at a point with inner coordinate zero, what the reset-and-add run leaves; at any
  other point, what the add run leaves over the contents after point t - 1 (the buffer is written back only at
  inner coordinate 15, so between those points it is carried).  The two windows on the positions array hold it at
  the two halves of the full share; the charges array and the output array are held whole.
-/
import proofs.«137582_j57114475102292_1_alg».proof.Proof.Kernel.CaseAdd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of the reset-and-add run cover the output block. -/
theorem cover0_A_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) (y : S16x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S16x128.size (by sl_kernel_rfl) y

/-- What the reset-and-add run leaves in the output buffer. -/
def out0_A_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) : Vec F S16x128 .f32 :=
  VO0_3.read (Elt F) (VO0_3.writes (Elt F) VO0_3.junk (kernelRun0_A c i arg2 harg2 arg3 harg3 arg4 harg4 arg5 harg5 hc0 x0 x1 x2).1)

/-- The store of the add run covers the output block. -/
theorem cover0_B_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) (y : S16x128.Idx) :
    ∃ pc ∈ (kernelRun0_B c i arg2 harg2 arg3 harg3 arg4 harg4 arg5 harg5 hc0 x0 x1 x2 xo).1, y ∈ pc.1.set :=
  View.cover_of_tiledL (kernelRun0_B c i arg2 harg2 arg3 harg3 arg4 harg4 arg5 harg5 hc0 x0 x1 x2 xo).1 S16x128.size (by sl_kernel_rfl) y

/-- What the add run leaves in the output buffer. -/
def out0_B_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) : Vec F S16x128 .f32 :=
  VO0_3.read (Elt F) (VO0_3.writes (Elt F) VO0_3.junk (kernelRun0_B c i arg2 harg2 arg3 harg3 arg4 harg4 arg5 harg5 hc0 x0 x1 x2 xo).1)

/-! ## What the output buffer holds after each point -/

/-- The accumulation, by recursion on the point. -/
def outsAt0 (c : Dev nD) : (n : ℕ) → n < cfg0.N → Vec F S16x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a point with inner coordinate zero. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline: the arrays as the region finds them; after the body each input's buffer at
    its block and the output's at the accumulation; the invariant the scoped buffers no window stages (none); nothing
    owed; the positions array held at the two halves of the full share by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point with inner coordinate not zero the output buffer holds what the body left at the point before: the
    buffer was not written back between (that happens only after inner coordinate 15). -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' buffers hold their blocks; the inner coordinate says which run applies; at a
    point that carries the accumulator the output buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedLaunch.lean ====
/-
  A kernel region whose input windows read ONE array through several windows, inside an @main that has host
  operations before and after the region.

  Mathematics of the statement.  The pipeline's proof data holds every window's array at a share of its own, so when
  two input windows name one buffer the buffer's full points-to has to be dealt between them at the region's entry
  and gathered again at its exit, before the host operations after the region (which run over whole buffers) can go
  on.  The theorem below takes those two moves as hypotheses — `hsplit0` (entry), `hjoin` (exit) and `hsplitN`
  (the arrays dealt once more after the last host operation, so that the region rule's accounting closes) — and
  concludes that the program runs to the end with every buffer that is no window's array at the value the host
  operations after the region compute from the exit contents `Wx`.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The run of `host operations; region; host operations` when windows of the region may share an array: every
    buffer that bypasses the region ends at what the later host operations make of the exit contents `Wx`, which
    agree with the entry contents `V₀` off the arrays (`hWx`). -/
theorem θ_run_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wx : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit0 : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊢ (arrBufs (cfg).spec c (fun b => Wx c (Proc.devRef .tc b)) : sProp 𝕄))
    (hWx : ∀ c, ∀ b ∈ restRefs sig (cfg).spec, Wx c (Proc.devRef .tc b) = V₀ c (Proc.devRef .tc b))
    (hsplitN : ∀ c, (arrBufs (cfg).spec c (fun b => StableHlo.after opss.flatten (Wx c) (Proc.devRef .tc b)) : sProp 𝕄)
      ⊢ (dats p c).arrays ((dats p c).arrAt · (cfg).N))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (fun r => ∀ c : Dev nD, ∀ b ∈ restRefs sig (cfg).spec,
      r.2.mem ((c.tc : Thread nD τ).loc b) = StableHlo.after opss.flatten (Wx c) (Proc.devRef .tc b)) := by
  classical
  refine θ_run_region_noSem_pf_tail (fun q => (cfgs q).toPCfg (Val := Val)) (fun q => (cfgs q).toPCfg_adm) dats () hinj p hw
    (PreFacts.none _) emb₁ defs₀ 𝒱₀ m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit0) (hpf := fun _ k => k.elim0)
    (X := fun _ => iprop(emp)) (Y := fun _ => iprop(emp))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wx c) (Proc.devRef .tc b)))
    (hX := fun c => by
      iintro H
      isplitr; · iempintro
      iexact H)
    (hin := fun c => (show _ ⊢ (scopedRest (Ix := Unit) (Name := ℕ) (U := UR sig nD τ) (Lvl := ℕ) (Val := Val) (cfg).spec c : sProp 𝕄) by
      iintro ⟨-, -, HR⟩; iexact HR).trans (hin c))
    (hout := fun c => (hout c).trans (by
      iintro HR
      isplitr; · iempintro
      iexact HR))
    (htail := fun c Q' => ?_)
    (QY := fun c s => ∀ b ∈ restRefs sig (cfg).spec,
      s.mem ((c.tc : Thread nD τ).loc b) = StableHlo.after opss.flatten (Wx c) (Proc.devRef .tc b))
    (hY := fun c s' => by
      rw [unscopedRestP_none]
      unfold unscopedRest
      iintro ⟨-, HU, HSI⟩
      imodintro
      iapply (pointsTo_read_all (restRefs sig (cfg).spec) (fun b => (c.tc : Thread nD τ).loc b)
        (fun b => StableHlo.after opss.flatten (Wx c) (Proc.devRef .tc b)) s')
      isplitl [HU] <;> iassumption)
    (hQ := fun s h c => (h c).2.2)
  -- the host operations after the region: gather the arrays, run the operations over whole buffers, deal the arrays again
  rw [unscopedRestP_none, unscopedRestP_none]
  have hV : (unscopedRest (cfg).spec c (fun b => V₀ c (Proc.devRef .tc b)) : sProp 𝕄)
      = unscopedRest (cfg).spec c (fun b => Wx c (Proc.devRef .tc b)) := by
    unfold unscopedRest
    exact bigSep_congr fun b hb => by dsimp only; rw [hWx c b hb]
  have e1 : iprop((dats p c).arrays ((dats p c).arrAt · (cfg).N) ∗ (unscopedRest (cfg).spec c (fun b => V₀ c (Proc.devRef .tc b)) : sProp 𝕄))
      ⊢ (StableHlo.held (c.tc : Thread nD τ) (ucRefs τ sig) (Wx c) : sProp 𝕄) := by
    rw [← unscopedBufs_held (Ix := Unit) (Name := ℕ) (U := UR sig nD τ) (Lvl := ℕ) c (Wx c),
      unscopedBufs_split₀ cfgs p hw.arr_unscoped c, hV]
    exact sep_mono (hjoin c) .rfl
  have e2 : (StableHlo.held (c.tc : Thread nD τ) (ucRefs τ sig) (StableHlo.after opss.flatten (Wx c)) : sProp 𝕄)
      ⊢ iprop((dats p c).arrays ((dats p c).arrAt · (cfg).N)
          ∗ (unscopedRest (cfg).spec c (fun b => StableHlo.after opss.flatten (Wx c) (Proc.devRef .tc b)) : sProp 𝕄)) := by
    rw [← unscopedBufs_held (Ix := Unit) (Name := ℕ) (U := UR sig nD τ) (Lvl := ℕ) c (StableHlo.after opss.flatten (Wx c)),
      unscopedBufs_split₀ cfgs p hw.arr_unscoped c]
    exact sep_mono (hsplitN c) .rfl
  rw [← List.append_nil (opss.map StableHlo.seq)]
  iintro ⟨Hk, Hb, HA, HZ⟩
  ihave HH := e1 $$ [HA HZ]
  · isplitl [HA] <;> iassumption
  iapply (wp_seqs_then (fun q => (cfgs q).toPCfg (Val := Val)) defs₀ 𝒱₀ c (ucRefs τ sig) [] opss
    (fun ops ho op h => sub_ucRefs op (hsub ops ho op h)) hfresh (Wx c)) $$ [Hb HH]
  · isplitl [Hb] <;> iassumption
  iintro ⟨-, HH⟩
  rw [chain_nil, wp_pure]
  imodintro
  iapply Hk
  iapply e2
  iexact HH

end SharedAround

end Pipeline

end Idealize.ShloMosaic

end
-- ==== Proof.Kernel.Launch.lean ====
/-
  The launch: the program runs to the end, and every buffer that is no window's array ends at what the eight host
  operations after the region compute from the region's exit contents — the entry contents with the output array
  replaced by the blocks the pipeline wrote back.

  The positions array is read through two windows, so its points-to is dealt to them in two halves at the region's
  entry and gathered again at its exit (both halves hold the same, unchanged, contents).
-/
import proofs.«137582_j57114475102292_1_alg».proof.Proof.Kernel.Acc
import proofs.«137582_j57114475102292_1_alg».proof.Proof.LibSharedLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)

/-! ## The shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl

/-- The three buffers behind the four windows, whole, are the pipeline's arrays: the positions buffer dealt in two
    halves to the windows that read it. -/
theorem arrays_of_bufs (c : Dev nD) (W : (b : Ref sig .tc) → Buf (Elt F) ((c.tc : Thread nD τ).loc b)) :
    (arrBufs spec0 c W : sProp 𝕄) ⊢ (dats m 0 c).arrays (fun w => W (arrRef spec0 w)) := by
  unfold Pipeline.arrBufs Dat.arrays
  rw [bigSep_eq_bigSepL_of_eq [main_v0, main_v1, main_v2] (by decide) (by decide), bigSep_W0,
    share_0, share_1, share_2, share_3, (arr_whole0 0).set_eq_univ, (arr_whole0 2).set_eq_univ, (arr_whole0 3).set_eq_univ]
  show iprop((((c.tc : Thread nD τ).loc main_v0) ↦{fullShare} W main_v0) ∗ (((c.tc : Thread nD τ).loc main_v1) ↦{fullShare} W main_v1)
      ∗ (((c.tc : Thread nD τ).loc main_v2) ↦{fullShare} W main_v2))
    ⊢ iprop((((c.tc : Thread nD τ).loc main_v0) ↦{fullShare.left} W main_v0) ∗ (((c.tc : Thread nD τ).loc main_v0) ↦{fullShare.right} W main_v0)
      ∗ (((c.tc : Thread nD τ).loc main_v1) ↦{fullShare} W main_v1) ∗ (((c.tc : Thread nD τ).loc main_v2) ↦{fullShare} W main_v2))
  iintro ⟨H0, H1, H2⟩
  ihave H := (pointsTo_share (PosShare.mem_left_op_right fullShare)).1 $$ H0
  icases H with ⟨Ha, Hb⟩
  isplitl [Ha]; · iexact Ha
  isplitl [Hb]; · iexact Hb
  isplitl [H1]; · iexact H1
  iexact H2

/-- And back: the two halves of the positions buffer, at the same contents, make it whole. -/
theorem bufs_of_arrays (c : Dev nD) (W : (b : Ref sig .tc) → Buf (Elt F) ((c.tc : Thread nD τ).loc b)) :
    (dats m 0 c).arrays (fun w => W (arrRef spec0 w)) ⊢ (arrBufs spec0 c W : sProp 𝕄) := by
  unfold Pipeline.arrBufs Dat.arrays
  rw [bigSep_eq_bigSepL_of_eq [main_v0, main_v1, main_v2] (by decide) (by decide), bigSep_W0,
    share_0, share_1, share_2, share_3, (arr_whole0 0).set_eq_univ, (arr_whole0 2).set_eq_univ, (arr_whole0 3).set_eq_univ]
  show iprop((((c.tc : Thread nD τ).loc main_v0) ↦{fullShare.left} W main_v0) ∗ (((c.tc : Thread nD τ).loc main_v0) ↦{fullShare.right} W main_v0)
      ∗ (((c.tc : Thread nD τ).loc main_v1) ↦{fullShare} W main_v1) ∗ (((c.tc : Thread nD τ).loc main_v2) ↦{fullShare} W main_v2))
    ⊢ iprop((((c.tc : Thread nD τ).loc main_v0) ↦{fullShare} W main_v0) ∗ (((c.tc : Thread nD τ).loc main_v1) ↦{fullShare} W main_v1)
      ∗ (((c.tc : Thread nD τ).loc main_v2) ↦{fullShare} W main_v2))
  iintro ⟨Ha, Hb, H1, H2⟩
  isplitl [Ha Hb]
  · iapply (pointsTo_share (PosShare.mem_left_op_right fullShare)).2
    isplitl [Ha]; · iexact Ha
    iexact Hb
  isplitl [H1]; · iexact H1
  iexact H2

/-! ## The exit contents -/

/-- The buffers' contents when the region is left: the entry contents, the output array at what the pipeline wrote
    back into it. -/
def Wx (c : Dev nD) : Valuation τ sig (Elt F) := by
  classical
  exact Function.update (V0 m c) (Proc.devRef .tc main_v2) ((dats m 0 c).arrAt 3 cfg0.N)

theorem Wx_out (c : Dev nD) : Wx m c (Proc.devRef .tc main_v2) = (dats m 0 c).arrAt 3 cfg0.N := by
  classical
  unfold Wx; exact Function.update_self ..

theorem Wx_of_ne (c : Dev nD) (b : Ref sig .tc) (hb : b ≠ main_v2) : Wx m c (Proc.devRef .tc b) = V0 m c (Proc.devRef .tc b) := by
  classical
  unfold Wx
  exact Function.update_of_ne (fun h => hb (Proc.devRef_injective _ h)) ..

/-- Every window's array at the exit contents is what the proof data computes. -/
theorem Wx_arr (c : Dev nD) (w : Fin cfg0.W) : (dats m 0 c).arrAt w cfg0.N = Wx m c (Proc.devRef .tc (arrRef spec0 w)) := by
  fin_cases w
  · exact ((dats m 0 c).arrAt_in 0 rfl _).trans ((A_eq m c 0).trans (Wx_of_ne m c main_v0 (by decide)).symm)
  · exact ((dats m 0 c).arrAt_in 1 rfl _).trans ((A_eq m c 1).trans (Wx_of_ne m c main_v0 (by decide)).symm)
  · exact ((dats m 0 c).arrAt_in 2 rfl _).trans ((A_eq m c 2).trans (Wx_of_ne m c main_v1 (by decide)).symm)
  · exact (Wx_out m c).symm

/-- The host operations after the region write no window's array. -/
theorem tail_keeps : ∀ op ∈ ([hostOps1].flatten : List (HloOp τ sig (Elt F))), ∀ w, Proc.devRef .tc (arrRef spec0 w) ∉ op.writes := by
  intro op hop
  simp only [List.flatten_cons, List.flatten_nil, List.append_nil, hostOps1, List.mem_cons, List.mem_nil_iff, _root_.or_false] at hop
  rcases hop with rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem tail_arr (c : Dev nD) (w : Fin cfg0.W) :
    (dats m 0 c).arrAt w cfg0.N = StableHlo.after ([hostOps1].flatten) (Wx m c) (Proc.devRef .tc (arrRef spec0 w)) := by
  rw [StableHlo.after_of_forall_not_mem _ _ fun op hop => tail_keeps op hop w]
  exact Wx_arr m c w

/-! ## The run -/

set_option backward.isDefEq.respectTransparency.types false in
/-- Every weakly fair execution of @main terminates, and every buffer that is no window's array ends at what the
    later host operations make of the exit contents. -/
theorem run_main : θ_run defs (onTc (τ := τ) (main (F := F))) (s₀ m ρ) (fun r => ∀ c : Dev nD, ∀ b ∈ restRefs sig spec0,
      r.2.mem ((c.tc : Thread nD τ).loc b) = StableHlo.after ([hostOps1].flatten) (Wx m c) (Proc.devRef .tc b)) :=
  Pipeline.θ_run_around_shared cfgs (dats m) (0 : Fin 1) defs₀ Variants.none cellOf_inj winFacts₀0 block_pos0 arr_whole0 stage_whole0
    m ρ main (fun c => (body_obligation m c).loose) (fun _ _ => rfl) (V0 m) (Wx m) [hostOps1]
    (fun ops ho op h => by
      simp only [List.mem_cons, List.mem_nil_iff, _root_.or_false] at ho; subst ho
      exact (List.forall_iff_forall_mem.mp hostOps1_sub) op h)
    (fun ops ho op h => by
      simp only [List.mem_cons, List.mem_nil_iff, _root_.or_false] at ho; subst ho
      exact (List.forall_iff_forall_mem.mp hostOps1_fresh) op h)
    (hmain m Variants.none)
    (fun c => (arrays_of_bufs m c (fun b => V0 m c (Proc.devRef .tc b))).trans
      (Entails.of_eq (congrArg (dats m 0 c).arrays (funext fun w => (A_eq m c w).symm))))
    (fun c => (Entails.of_eq (congrArg (dats m 0 c).arrays (funext fun w => Wx_arr m c w))).trans
      (bufs_of_arrays m c (fun b => Wx m c (Proc.devRef .tc b))))
    (fun c b hb => Wx_of_ne m c b (fun h => by
      subst h
      exact (Finset.mem_sdiff.mp hb).2 (Finset.mem_image.mpr ⟨3, Finset.mem_univ _, rfl⟩)))
    (fun c => (arrays_of_bufs m c (fun b => StableHlo.after ([hostOps1].flatten) (Wx m c) (Proc.devRef .tc b))).trans
      (Entails.of_eq (congrArg (dats m 0 c).arrays (funext fun w => (tail_arr m c w).symm))))
    (fun c => .rfl) (fun c => .rfl)

end Cert.Kernel.Hand

end
-- ==== Proof.Kernel.Frame.lean ====
/-
  The frame: the program runs to the end and its three argument arrays end as they were.  None of them is a
  window's array (the windows read the reshaped copies), no host operation writes them, so they end at their
  launch contents.
-/
import proofs.«137582_j57114475102292_1_alg».proof.Proof.Kernel.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)

/-- A buffer that is no window's array and that no host operation writes ends at its launch contents. -/
theorem kept_of_not_written (c : Dev nD) (b : Ref sig .tc)
    (h1 : ∀ op ∈ ([hostOps1].flatten : List (HloOp τ sig (Elt F))), Proc.devRef .tc b ∉ op.writes)
    (h0 : ∀ op ∈ ([hostOps0].flatten : List (HloOp τ sig (Elt F))), Proc.devRef .tc b ∉ op.writes)
    (hb : b ≠ main_v2) :
    StableHlo.after ([hostOps1].flatten) (Wx m c) (Proc.devRef .tc b) = m ((c.tc : Thread nD τ).loc b) := by
  rw [StableHlo.after_of_forall_not_mem _ _ h1, Wx_of_ne m c b hb]
  exact StableHlo.after_of_forall_not_mem _ _ h0

theorem ops0_keep (b : Ref sig .tc) (h0 : b ≠ main_v0) (h1 : b ≠ main_v1) :
    ∀ op ∈ ([hostOps0].flatten : List (HloOp τ sig (Elt F))), Proc.devRef .tc b ∉ op.writes := by
  intro op hop
  simp only [List.flatten_cons, List.flatten_nil, List.append_nil, hostOps0, List.mem_cons, List.mem_nil_iff, _root_.or_false] at hop
  rcases hop with rfl | rfl
  all_goals simp only [StableHlo.reshape_writes, Finset.mem_singleton]
  · exact StableHlo.devRef_ne_of_ne h0
  · exact StableHlo.devRef_ne_of_ne h1

theorem ops1_keep (b : Ref sig .tc) (h3 : b ≠ main_v3) (h4 : b ≠ main_v4) (h5 : b ≠ main_v5) (h6 : b ≠ main_cst) (h7 : b ≠ main_v6)
    (h8 : b ≠ main_cst_0) (h9 : b ≠ main_v7) (h10 : b ≠ main_v8) :
    ∀ op ∈ ([hostOps1].flatten : List (HloOp τ sig (Elt F))), Proc.devRef .tc b ∉ op.writes := by
  intro op hop
  simp only [List.flatten_cons, List.flatten_nil, List.append_nil, hostOps1, List.mem_cons, List.mem_nil_iff, _root_.or_false] at hop
  rcases hop with rfl | rfl | rfl | rfl | rfl | rfl | rfl | rfl
  all_goals simp only [StableHlo.nullary_writes, StableHlo.unary_writes, StableHlo.binary_writes, StableHlo.reshape_writes, Finset.mem_singleton]
  · exact StableHlo.devRef_ne_of_ne h3
  · exact StableHlo.devRef_ne_of_ne h4
  · exact StableHlo.devRef_ne_of_ne h5
  · exact StableHlo.devRef_ne_of_ne h6
  · exact StableHlo.devRef_ne_of_ne h7
  · exact StableHlo.devRef_ne_of_ne h8
  · exact StableHlo.devRef_ne_of_ne h9
  · exact StableHlo.devRef_ne_of_ne h10

theorem mem_rest (b : Ref sig .tc) (hs : b.isScoped = false) (h0 : b ≠ main_v0) (h1 : b ≠ main_v1) (h2 : b ≠ main_v2) :
    b ∈ restRefs sig spec0 :=
  Pipeline.mem_restRefs_of b hs fun w => by
    fin_cases w
    · exact fun h => h0 h.symm
    · exact fun h => h0 h.symm
    · exact fun h => h1 h.symm
    · exact fun h => h2 h.symm

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_arg0 (mem_rest main_arg0 rfl (by decide) (by decide) (by decide))).trans
        (kept_of_not_written m c main_arg0 (ops1_keep main_arg0 (by decide) (by decide) (by decide) (by decide) (by decide) (by decide) (by decide) (by decide))
          (ops0_keep main_arg0 (by decide) (by decide)) (by decide)),
      (h c main_arg1 (mem_rest main_arg1 rfl (by decide) (by decide) (by decide))).trans
        (kept_of_not_written m c main_arg1 (ops1_keep main_arg1 (by decide) (by decide) (by decide) (by decide) (by decide) (by decide) (by decide) (by decide))
          (ops0_keep main_arg1 (by decide) (by decide)) (by decide)),
      (h c main_arg2 (mem_rest main_arg2 rfl (by decide) (by decide) (by decide))).trans
        (kept_of_not_written m c main_arg2 (ops1_keep main_arg2 (by decide) (by decide) (by decide) (by decide) (by decide) (by decide) (by decide) (by decide))
          (ops0_keep main_arg2 (by decide) (by decide)) (by decide))⟩)
    (run_main m ρ)

end Cert.Kernel.Hand

end
-- ==== Proof.KernelIdeal.Setting.lean ====
/-
  The field kernel's region as the pipeline runs it: what the arrays hold when the region is entered (the two
  reshapes of @main), each window's block at a grid point, the one condition of the body (the inner grid
  coordinate is zero: the accumulator is reset there), and the staging buffers the body is called with.

  The grid is 16 × 16, point t = (t / 16, t % 16): the outer coordinate picks the 128 target atoms j whose field is
  accumulated, the inner one the 128 source atoms i added at this point.  Windows 0 and 2 (positions and charges of
  the sources) move with the inner coordinate, window 1 (positions of the targets) and the output window 3 with
  the outer one.
-/
import proofs.«137582_j57114475102292_1_alg».proof.Proof.Gen.KernelIdeal.Launch
import proofs.«137582_j57114475102292_1_alg».proof.Proof.Gen.KernelIdeal.Skeleton
import proofs.«137582_j57114475102292_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the two reshapes, the region, and the eight later host operations: it reduces to the region continued by
    the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (List.forall_iff_forall_mem.mpr fun ops ho => by
      simp only [List.mem_cons, List.mem_nil_iff, or_false] at ho; subst ho; exact hostOps0_sub)
    (List.forall_iff_forall_mem.mpr fun ops ho => by
      simp only [List.mem_cons, List.mem_nil_iff, or_false] at ho; subst ho; exact hostOps0_fresh)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (where it is not
    fetched its block index has not moved), for any proof data whose array is `V`'s and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's condition -/

/-- The body resets the accumulator when the inner grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging buffers -/

/-- One staging buffer of the output window, through which its contents are stated. -/
abbrev VO0_3 : View sig .tc .vmem S16x128 .f32 := (Memref.whole cc0_stg3_0 : Memref sig .tc .vmem S16x128 .f32).view
/-- Each window's current staging memref at point `t`, as the pipeline passes it, and its wholeness. -/
abbrev ms0_0 (t : Fin cfg0.N) : Memref sig .tc .vmem S16x128x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KernelIdeal.CaseReset.lean ====
/-
  The body at a point whose inner grid coordinate is zero: it first stores zeros over the whole accumulator buffer,
  then loads the three input blocks and the (now zero) accumulator and stores the accumulator plus this point's
  sum over the 128 sources.  Stated as a triple on any whole staging buffers: the inputs come back as they were,
  the output buffer ends with the list of stores the run made (found by the run itself).
-/
import proofs.«137582_j57114475102292_1_alg».proof.Proof.KernelIdeal.Setting

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the accumulator is reset: the output buffer's final stores, with the proof that the body
    runs from whole staging buffers — the inputs at `x0`, `x1`, `x2`, the output at anything — to the continuation. -/
noncomputable def kernelRun0_A (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) :
    { L3 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__field_kernel i arg2 harg2 arg3 harg3 arg4 harg4 arg5 harg5) K } := by
  refine ⟨?_, fun E K => ?run⟩
  case run =>
    simp only [cc0__field_kernel_eq_skeleton]; unfold cc0__field_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KernelIdeal.CaseAdd.lean ====
/-
  The body at a point whose inner grid coordinate is not zero: it loads the three input blocks and the running
  accumulator `xo` and stores `xo` plus this point's sum over the 128 sources.  Stated as a triple on any whole
  staging buffers: the inputs come back as they were, the output buffer ends with the store the run made.
-/
import proofs.«137582_j57114475102292_1_alg».proof.Proof.KernelIdeal.CaseReset

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run when the accumulator is carried: the output buffer's final stores, with the proof that the body
    runs from whole staging buffers — the inputs at `x0`, `x1`, `x2`, the output at `xo` — to the continuation. -/
noncomputable def kernelRun0_B (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) :
    { L3 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__field_kernel i arg2 harg2 arg3 harg3 arg4 harg4 arg5 harg5) K } := by
  refine ⟨?_, fun E K => ?run⟩
  case run =>
    simp only [cc0__field_kernel_eq_skeleton]; unfold cc0__field_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KernelIdeal.Acc.lean ====
/-
  What the output window's staging buffer holds after each grid point, the pipeline's proof data, and the body
  obligation at every point.

  After point t the buffer holds: at a point with inner coordinate zero, what the reset-and-add run leaves; at any
  other point, what the add run leaves over the contents after point t - 1 (the buffer is written back only at
  inner coordinate 15, so between those points it is carried).  The two windows on the positions array hold it at
  the two halves of the full share; the charges array and the output array are held whole.
-/
import proofs.«137582_j57114475102292_1_alg».proof.Proof.KernelIdeal.CaseAdd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of the reset-and-add run cover the output block. -/
theorem cover0_A_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) (y : S16x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S16x128.size (by sl_kernel_rfl) y

/-- What the reset-and-add run leaves in the output buffer. -/
def out0_A_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) : Vec F S16x128 .f32 :=
  VO0_3.read (Elt F) (VO0_3.writes (Elt F) VO0_3.junk (kernelRun0_A c i arg2 harg2 arg3 harg3 arg4 harg4 arg5 harg5 hc0 x0 x1 x2).1)

/-- The store of the add run covers the output block. -/
theorem cover0_B_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) (y : S16x128.Idx) :
    ∃ pc ∈ (kernelRun0_B c i arg2 harg2 arg3 harg3 arg4 harg4 arg5 harg5 hc0 x0 x1 x2 xo).1, y ∈ pc.1.set :=
  View.cover_of_tiledL (kernelRun0_B c i arg2 harg2 arg3 harg3 arg4 harg4 arg5 harg5 hc0 x0 x1 x2 xo).1 S16x128.size (by sl_kernel_rfl) y

/-- What the add run leaves in the output buffer. -/
def out0_B_3 (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) : Vec F S16x128 .f32 :=
  VO0_3.read (Elt F) (VO0_3.writes (Elt F) VO0_3.junk (kernelRun0_B c i arg2 harg2 arg3 harg3 arg4 harg4 arg5 harg5 hc0 x0 x1 x2 xo).1)

/-! ## What the output buffer holds after each point -/

/-- The accumulation, by recursion on the point. -/
def outsAt0 (c : Dev nD) : (n : ℕ) → n < cfg0.N → Vec F S16x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 16 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a point with inner coordinate zero. -/
theorem outsAt0_A (c : Dev nD) (t : Fin cfg0.N) (h0 : t.val % 16 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 16 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline: the arrays as the region finds them; after the body each input's buffer at
    its block and the output's at the accumulation; the invariant the scoped buffers no window stages (none); nothing
    owed; the positions array held at the two halves of the full share by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point with inner coordinate not zero the output buffer holds what the body left at the point before: the
    buffer was not written back between (that happens only after inner coordinate 15). -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' buffers hold their blocks; the inner coordinate says which run applies; at a
    point that carries the accumulator the output buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 256 := lt_of_lt_of_eq t.isLt (show cfg0.N = 256 from N_0)
  by_cases h0 : t.val % 16 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Launch.lean ====
/-
  The launch: the program runs to the end, and every buffer that is no window's array ends at what the eight host
  operations after the region compute from the region's exit contents — the entry contents with the output array
  replaced by the blocks the pipeline wrote back.

  The positions array is read through two windows, so its points-to is dealt to them in two halves at the region's
  entry and gathered again at its exit (both halves hold the same, unchanged, contents).
-/
import proofs.«137582_j57114475102292_1_alg».proof.Proof.KernelIdeal.Acc
import proofs.«137582_j57114475102292_1_alg».proof.Proof.LibSharedLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)

/-! ## The shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl

/-- The three buffers behind the four windows, whole, are the pipeline's arrays: the positions buffer dealt in two
    halves to the windows that read it. -/
theorem arrays_of_bufs (c : Dev nD) (W : (b : Ref sig .tc) → Buf (Elt F) ((c.tc : Thread nD τ).loc b)) :
    (arrBufs spec0 c W : sProp 𝕄) ⊢ (dats m 0 c).arrays (fun w => W (arrRef spec0 w)) := by
  unfold Pipeline.arrBufs Dat.arrays
  rw [bigSep_eq_bigSepL_of_eq [main_v0, main_v1, main_v2] (by decide) (by decide), bigSep_W0,
    share_0, share_1, share_2, share_3, (arr_whole0 0).set_eq_univ, (arr_whole0 2).set_eq_univ, (arr_whole0 3).set_eq_univ]
  show iprop((((c.tc : Thread nD τ).loc main_v0) ↦{fullShare} W main_v0) ∗ (((c.tc : Thread nD τ).loc main_v1) ↦{fullShare} W main_v1)
      ∗ (((c.tc : Thread nD τ).loc main_v2) ↦{fullShare} W main_v2))
    ⊢ iprop((((c.tc : Thread nD τ).loc main_v0) ↦{fullShare.left} W main_v0) ∗ (((c.tc : Thread nD τ).loc main_v0) ↦{fullShare.right} W main_v0)
      ∗ (((c.tc : Thread nD τ).loc main_v1) ↦{fullShare} W main_v1) ∗ (((c.tc : Thread nD τ).loc main_v2) ↦{fullShare} W main_v2))
  iintro ⟨H0, H1, H2⟩
  ihave H := (pointsTo_share (PosShare.mem_left_op_right fullShare)).1 $$ H0
  icases H with ⟨Ha, Hb⟩
  isplitl [Ha]; · iexact Ha
  isplitl [Hb]; · iexact Hb
  isplitl [H1]; · iexact H1
  iexact H2

/-- And back: the two halves of the positions buffer, at the same contents, make it whole. -/
theorem bufs_of_arrays (c : Dev nD) (W : (b : Ref sig .tc) → Buf (Elt F) ((c.tc : Thread nD τ).loc b)) :
    (dats m 0 c).arrays (fun w => W (arrRef spec0 w)) ⊢ (arrBufs spec0 c W : sProp 𝕄) := by
  unfold Pipeline.arrBufs Dat.arrays
  rw [bigSep_eq_bigSepL_of_eq [main_v0, main_v1, main_v2] (by decide) (by decide), bigSep_W0,
    share_0, share_1, share_2, share_3, (arr_whole0 0).set_eq_univ, (arr_whole0 2).set_eq_univ, (arr_whole0 3).set_eq_univ]
  show iprop((((c.tc : Thread nD τ).loc main_v0) ↦{fullShare.left} W main_v0) ∗ (((c.tc : Thread nD τ).loc main_v0) ↦{fullShare.right} W main_v0)
      ∗ (((c.tc : Thread nD τ).loc main_v1) ↦{fullShare} W main_v1) ∗ (((c.tc : Thread nD τ).loc main_v2) ↦{fullShare} W main_v2))
    ⊢ iprop((((c.tc : Thread nD τ).loc main_v0) ↦{fullShare} W main_v0) ∗ (((c.tc : Thread nD τ).loc main_v1) ↦{fullShare} W main_v1)
      ∗ (((c.tc : Thread nD τ).loc main_v2) ↦{fullShare} W main_v2))
  iintro ⟨Ha, Hb, H1, H2⟩
  isplitl [Ha Hb]
  · iapply (pointsTo_share (PosShare.mem_left_op_right fullShare)).2
    isplitl [Ha]; · iexact Ha
    iexact Hb
  isplitl [H1]; · iexact H1
  iexact H2

/-! ## The exit contents -/

/-- The buffers' contents when the region is left: the entry contents, the output array at what the pipeline wrote
    back into it. -/
def Wx (c : Dev nD) : Valuation τ sig (Elt F) := by
  classical
  exact Function.update (V0 m c) (Proc.devRef .tc main_v2) ((dats m 0 c).arrAt 3 cfg0.N)

theorem Wx_out (c : Dev nD) : Wx m c (Proc.devRef .tc main_v2) = (dats m 0 c).arrAt 3 cfg0.N := by
  classical
  unfold Wx; exact Function.update_self ..

theorem Wx_of_ne (c : Dev nD) (b : Ref sig .tc) (hb : b ≠ main_v2) : Wx m c (Proc.devRef .tc b) = V0 m c (Proc.devRef .tc b) := by
  classical
  unfold Wx
  exact Function.update_of_ne (fun h => hb (Proc.devRef_injective _ h)) ..

/-- Every window's array at the exit contents is what the proof data computes. -/
theorem Wx_arr (c : Dev nD) (w : Fin cfg0.W) : (dats m 0 c).arrAt w cfg0.N = Wx m c (Proc.devRef .tc (arrRef spec0 w)) := by
  fin_cases w
  · exact ((dats m 0 c).arrAt_in 0 rfl _).trans ((A_eq m c 0).trans (Wx_of_ne m c main_v0 (by decide)).symm)
  · exact ((dats m 0 c).arrAt_in 1 rfl _).trans ((A_eq m c 1).trans (Wx_of_ne m c main_v0 (by decide)).symm)
  · exact ((dats m 0 c).arrAt_in 2 rfl _).trans ((A_eq m c 2).trans (Wx_of_ne m c main_v1 (by decide)).symm)
  · exact (Wx_out m c).symm

/-- The host operations after the region write no window's array. -/
theorem tail_keeps : ∀ op ∈ ([hostOps1].flatten : List (HloOp τ sig (Elt F))), ∀ w, Proc.devRef .tc (arrRef spec0 w) ∉ op.writes := by
  intro op hop
  simp only [List.flatten_cons, List.flatten_nil, List.append_nil, hostOps1, List.mem_cons, List.mem_nil_iff, _root_.or_false] at hop
  rcases hop with rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

theorem tail_arr (c : Dev nD) (w : Fin cfg0.W) :
    (dats m 0 c).arrAt w cfg0.N = StableHlo.after ([hostOps1].flatten) (Wx m c) (Proc.devRef .tc (arrRef spec0 w)) := by
  rw [StableHlo.after_of_forall_not_mem _ _ fun op hop => tail_keeps op hop w]
  exact Wx_arr m c w

/-! ## The run -/

set_option backward.isDefEq.respectTransparency.types false in
/-- Every weakly fair execution of @main terminates, and every buffer that is no window's array ends at what the
    later host operations make of the exit contents. -/
theorem run_main : θ_run defs (onTc (τ := τ) (main (F := F))) (s₀ m ρ) (fun r => ∀ c : Dev nD, ∀ b ∈ restRefs sig spec0,
      r.2.mem ((c.tc : Thread nD τ).loc b) = StableHlo.after ([hostOps1].flatten) (Wx m c) (Proc.devRef .tc b)) :=
  Pipeline.θ_run_around_shared cfgs (dats m) (0 : Fin 1) defs₀ Variants.none cellOf_inj winFacts₀0 block_pos0 arr_whole0 stage_whole0
    m ρ main (fun c => (body_obligation m c).loose) (fun _ _ => rfl) (V0 m) (Wx m) [hostOps1]
    (fun ops ho op h => by
      simp only [List.mem_cons, List.mem_nil_iff, _root_.or_false] at ho; subst ho
      exact (List.forall_iff_forall_mem.mp hostOps1_sub) op h)
    (fun ops ho op h => by
      simp only [List.mem_cons, List.mem_nil_iff, _root_.or_false] at ho; subst ho
      exact (List.forall_iff_forall_mem.mp hostOps1_fresh) op h)
    (hmain m Variants.none)
    (fun c => (arrays_of_bufs m c (fun b => V0 m c (Proc.devRef .tc b))).trans
      (Entails.of_eq (congrArg (dats m 0 c).arrays (funext fun w => (A_eq m c w).symm))))
    (fun c => (Entails.of_eq (congrArg (dats m 0 c).arrays (funext fun w => Wx_arr m c w))).trans
      (bufs_of_arrays m c (fun b => Wx m c (Proc.devRef .tc b))))
    (fun c b hb => Wx_of_ne m c b (fun h => by
      subst h
      exact (Finset.mem_sdiff.mp hb).2 (Finset.mem_image.mpr ⟨3, Finset.mem_univ _, rfl⟩)))
    (fun c => (arrays_of_bufs m c (fun b => StableHlo.after ([hostOps1].flatten) (Wx m c) (Proc.devRef .tc b))).trans
      (Entails.of_eq (congrArg (dats m 0 c).arrays (funext fun w => (tail_arr m c w).symm))))
    (fun c => .rfl) (fun c => .rfl)

end Cert.KernelIdeal.Hand

end
-- ==== Proof.KernelIdeal.Frame.lean ====
/-
  The frame: the program runs to the end and its three argument arrays end as they were.  None of them is a
  window's array (the windows read the reshaped copies), no host operation writes them, so they end at their
  launch contents.
-/
import proofs.«137582_j57114475102292_1_alg».proof.Proof.KernelIdeal.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (arrBufs arrRef restRefs)

/-- A buffer that is no window's array and that no host operation writes ends at its launch contents. -/
theorem kept_of_not_written (c : Dev nD) (b : Ref sig .tc)
    (h1 : ∀ op ∈ ([hostOps1].flatten : List (HloOp τ sig (Elt F))), Proc.devRef .tc b ∉ op.writes)
    (h0 : ∀ op ∈ ([hostOps0].flatten : List (HloOp τ sig (Elt F))), Proc.devRef .tc b ∉ op.writes)
    (hb : b ≠ main_v2) :
    StableHlo.after ([hostOps1].flatten) (Wx m c) (Proc.devRef .tc b) = m ((c.tc : Thread nD τ).loc b) := by
  rw [StableHlo.after_of_forall_not_mem _ _ h1, Wx_of_ne m c b hb]
  exact StableHlo.after_of_forall_not_mem _ _ h0

theorem ops0_keep (b : Ref sig .tc) (h0 : b ≠ main_v0) (h1 : b ≠ main_v1) :
    ∀ op ∈ ([hostOps0].flatten : List (HloOp τ sig (Elt F))), Proc.devRef .tc b ∉ op.writes := by
  intro op hop
  simp only [List.flatten_cons, List.flatten_nil, List.append_nil, hostOps0, List.mem_cons, List.mem_nil_iff, _root_.or_false] at hop
  rcases hop with rfl | rfl
  all_goals simp only [StableHlo.reshape_writes, Finset.mem_singleton]
  · exact StableHlo.devRef_ne_of_ne h0
  · exact StableHlo.devRef_ne_of_ne h1

theorem ops1_keep (b : Ref sig .tc) (h3 : b ≠ main_v3) (h4 : b ≠ main_v4) (h5 : b ≠ main_v5) (h6 : b ≠ main_cst) (h7 : b ≠ main_v6)
    (h8 : b ≠ main_cst_0) (h9 : b ≠ main_v7) (h10 : b ≠ main_v8) :
    ∀ op ∈ ([hostOps1].flatten : List (HloOp τ sig (Elt F))), Proc.devRef .tc b ∉ op.writes := by
  intro op hop
  simp only [List.flatten_cons, List.flatten_nil, List.append_nil, hostOps1, List.mem_cons, List.mem_nil_iff, _root_.or_false] at hop
  rcases hop with rfl | rfl | rfl | rfl | rfl | rfl | rfl | rfl
  all_goals simp only [StableHlo.nullary_writes, StableHlo.unary_writes, StableHlo.binary_writes, StableHlo.reshape_writes, Finset.mem_singleton]
  · exact StableHlo.devRef_ne_of_ne h3
  · exact StableHlo.devRef_ne_of_ne h4
  · exact StableHlo.devRef_ne_of_ne h5
  · exact StableHlo.devRef_ne_of_ne h6
  · exact StableHlo.devRef_ne_of_ne h7
  · exact StableHlo.devRef_ne_of_ne h8
  · exact StableHlo.devRef_ne_of_ne h9
  · exact StableHlo.devRef_ne_of_ne h10

theorem mem_rest (b : Ref sig .tc) (hs : b.isScoped = false) (h0 : b ≠ main_v0) (h1 : b ≠ main_v1) (h2 : b ≠ main_v2) :
    b ∈ restRefs sig spec0 :=
  Pipeline.mem_restRefs_of b hs fun w => by
    fin_cases w
    · exact fun h => h0 h.symm
    · exact fun h => h0 h.symm
    · exact fun h => h1 h.symm
    · exact fun h => h2 h.symm

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c main_arg0 (mem_rest main_arg0 rfl (by decide) (by decide) (by decide))).trans
        (kept_of_not_written m c main_arg0 (ops1_keep main_arg0 (by decide) (by decide) (by decide) (by decide) (by decide) (by decide) (by decide) (by decide))
          (ops0_keep main_arg0 (by decide) (by decide)) (by decide)),
      (h c main_arg1 (mem_rest main_arg1 rfl (by decide) (by decide) (by decide))).trans
        (kept_of_not_written m c main_arg1 (ops1_keep main_arg1 (by decide) (by decide) (by decide) (by decide) (by decide) (by decide) (by decide) (by decide))
          (ops0_keep main_arg1 (by decide) (by decide)) (by decide)),
      (h c main_arg2 (mem_rest main_arg2 rfl (by decide) (by decide) (by decide))).trans
        (kept_of_not_written m c main_arg2 (ops1_keep main_arg2 (by decide) (by decide) (by decide) (by decide) (by decide) (by decide) (by decide) (by decide))
          (ops0_keep main_arg2 (by decide) (by decide)) (by decide))⟩)
    (run_main m ρ)

end Cert.KernelIdeal.Hand

end
-- ==== Proof.KernelIdeal.Fold.lean ====
/-
  The output array after the run, as one function of the entry contents.

  The run of the sixteen points t = 16·J, …, 16·J + 15 resets the output buffer at the first and adds into it at each
  later one; the block written back after the last is the whole run's fold, and those sixteen blocks (J = 0 … 15)
  tile the [16, 2048] output array along its second axis.
-/
import proofs.«137582_j57114475102292_1_alg».proof.Proof.KernelIdeal.Launch
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the reset-and-add run leaves, as a term: the accumulator plus the point's sum, the accumulator the zeros
    just stored. -/
theorem out_A_3_eq (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : cond0_0 i)
    (x0 : Vec F S16x128x3 .f32) (x1 : Vec F S16x128x3 .f32) (x2 : Vec F S16x128x1 .f32) :
    out0_A_3 c i arg2 harg2 arg3 harg3 arg4 harg4 arg5 harg5 hc0 x0 x1 x2
      = k0_pay1 (BitVec.ofNat 32 (i 0).val) (BitVec.ofNat 32 (i 1).val) (k0_pay3 x2) (k0_pay4 x0 x1) (Scalar.ofBits .f32 0x3089705F#32) (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  try sl_unfold_words
  rw [View.canon_cons_unit_zero (S := S16x128) hz2, View.readCov_unit_zero (S := S16x128) _ hz2]
  simp only [View.readAt_eq_ld, harg2.read_unread, harg3.read_unread, harg4.read_unread, harg5.read_unread, View.ld_unit_zero (S := S16x128) hz2, View.ld_unit_zero (S := S16x128x3) hz3, View.ld_unit_zero (S := S16x128x1) hz3, shapeCast_self]

/-- What the add run leaves, as a term: the running accumulator plus the point's sum. -/
theorem out_B_3_eq (c : Dev nD) (i : grid0.Coords) (arg2 : Memref sig .tc .vmem S16x128x3 .f32) (harg2 : arg2.IsWhole) (arg3 : Memref sig .tc .vmem S16x128x3 .f32) (harg3 : arg3.IsWhole) (arg4 : Memref sig .tc .vmem S16x128x1 .f32) (harg4 : arg4.IsWhole) (arg5 : Memref sig .tc .vmem S16x128 .f32) (harg5 : arg5.IsWhole) (hc0 : ¬cond0_0 i)
    (x0 : Vec F S16x128x3 .f32) (x1 : Vec F S16x128x3 .f32) (x2 : Vec F S16x128x1 .f32) (xo : Vec F S16x128 .f32) :
    out0_B_3 c i arg2 harg2 arg3 harg3 arg4 harg4 arg5 harg5 hc0 x0 x1 x2 xo
      = k0_pay1 (BitVec.ofNat 32 (i 0).val) (BitVec.ofNat 32 (i 1).val) (k0_pay3 x2) (k0_pay4 x0 x1) (Scalar.ofBits .f32 0x3089705F#32) xo := by
  unfold out0_B_3
  rw [View.read_writes_eq_canon _ _ _ (cover0_B_3 c i arg2 harg2 arg3 harg3 arg4 harg4 arg5 harg5 hc0 x0 x1 x2 xo)]
  unfold kernelRun0_B
  dsimp only
  try sl_unfold_words
  rw [View.canon_unit_zero (S := S16x128) hz2]
  simp only [View.readAt_eq_ld, harg2.read_unread, harg3.read_unread, harg4.read_unread, harg5.read_unread, View.ld_unit_zero (S := S16x128) hz2, View.ld_unit_zero (S := S16x128x3) hz3, View.ld_unit_zero (S := S16x128x1) hz3, shapeCast_self]

/-- THE RESET at point `n`. -/
def reset3 (c : Dev nD) (n : ℕ) (h : n < cfg0.N) : Vec F S16x128 .f32 :=
  k0_pay1 (BitVec.ofNat 32 (grid0.coords ⟨n, h⟩ 0).val) (BitVec.ofNat 32 (grid0.coords ⟨n, h⟩ 1).val) (k0_pay3 (iblk m c 2 ⟨n, h⟩))
    (k0_pay4 (iblk m c 0 ⟨n, h⟩) (iblk m c 1 ⟨n, h⟩)) (Scalar.ofBits .f32 0x3089705F#32) (k0_pay2 (F := F))

/-- THE STEP at point `n`, over what the point before left. -/
def step3 (c : Dev nD) (n : ℕ) (h : n < cfg0.N) (acc : Vec F S16x128 .f32) : Vec F S16x128 .f32 :=
  k0_pay1 (BitVec.ofNat 32 (grid0.coords ⟨n, h⟩ 0).val) (BitVec.ofNat 32 (grid0.coords ⟨n, h⟩ 1).val) (k0_pay3 (iblk m c 2 ⟨n, h⟩))
    (k0_pay4 (iblk m c 0 ⟨n, h⟩) (iblk m c 1 ⟨n, h⟩)) (Scalar.ofBits .f32 0x3089705F#32) acc

/-- What the output buffer holds after point `t`: the fold of its run up to `t`. -/
theorem outsAt_3_eq (c : Dev nD) (t : Fin cfg0.N) :
    (outsAt0 m c t.val t.isLt) = Pipeline.accAt (reset3 m c) (step3 m c) (16 * (t.val / 16)) (t.val % 16)
      (by have h1 := t.isLt; have h2 := Nat.div_add_mod t.val 16; omega) :=
  Pipeline.eq_accAt_of_mod (fun n h => (outsAt0 m c n h)) 16 (reset3 m c) (step3 m c)
    (fun n h hn => by rw [outsAt0_A m c ⟨n, h⟩ hn]; exact out_A_3_eq ..)
    (fun n h hn => by rw [outsAt0_B m c ⟨n + 1, h⟩ hn]; exact out_B_3_eq ..)
    (by decide) t.val t.isLt _

/-- The run whose written-back block holds array index `i`, and `i`'s place in the block. -/
abbrev run3Of (i : S16x2048.Idx) : ℕ := (i 1).val / 128
abbrev loc3Of (i : S16x2048.Idx) : S16x128.Idx := fun a => match a with
  | ⟨0, _⟩ => ⟨(i 0).val % 16, Nat.mod_lt _ (by decide)⟩
  | ⟨1, _⟩ => ⟨(i 1).val % 128, Nat.mod_lt _ (by decide)⟩

/-- What the output array ends holding at index `i`: the fold of the run whose block holds `i`, at `i`'s place. -/
def G3 (c : Dev nD) : Buf (Elt F) ((c : Thread nD τ).loc main_v2) := fun i =>
  if h : 16 * run3Of i + 15 < cfg0.N then
    (Pipeline.accAt (reset3 m c) (step3 m c) (16 * run3Of i) 15 h) (loc3Of i)
  else V m c (Pipeline.arrRef spec0 3) i

/-- The output window's block index at point `t` is `(0, t / 16)`. -/
theorem idx_facts3 : ∀ t : Fin cfg0.N, win0_3.index t (0 : Fin 2) = 0 ∧ win0_3.index t (1 : Fin 2) = t.val / 16 :=
  (by decide +kernel : ∀ t : Fin grid0.N, _)

/-- Every block of the array is some writing-back point's. -/
theorem idx_onto3 : ∀ (q1 : Fin 16), ∃ t : Fin cfg0.N, (cfg0.win 3).flush t = true ∧ win0_3.index t = ![0, q1.val] :=
  (by decide +kernel : ∀ (q1 : Fin 16), ∃ t : Fin grid0.N, win0_3.flush t = true ∧ win0_3.index t = ![0, q1.val])

/-- What a writing-back point `t` writes is block `t` of `G3`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt_3_eq]
  have hm : t.val % 16 = 15 := (flush0_3 t).mp hf
  obtain ⟨e0, e1⟩ := idx_facts3 t
  funext y
  have hy0 : (y 0).val < 16 := (y 0).isLt
  have hy1 : (y 1).val < 128 := (y 1).isLt
  have hb0 : (((cfg0.win 3).blk t).view.emb y 0).val = win0_3.index t (0 : Fin 2) * 16 + 1 * (y 0).val := rfl
  have hb1 : (((cfg0.win 3).blk t).view.emb y 1).val = win0_3.index t (1 : Fin 2) * 128 + 1 * (y 1).val := rfl
  have hr : run3Of (((cfg0.win 3).blk t).view.emb y) = t.val / 16 := by
    show (((cfg0.win 3).blk t).view.emb y 1).val / 128 = _
    rw [hb1, e1]
    omega
  have hl : loc3Of (((cfg0.win 3).blk t).view.emb y) = (cfg0.win 3).xinj (grid0.coords t) y := by
    funext a; apply Fin.ext
    match a with
    | ⟨0, _⟩ => show (((cfg0.win 3).blk t).view.emb y 0).val % 16 = (y 0).val; rw [hb0, e0]; omega
    | ⟨1, _⟩ => show (((cfg0.win 3).blk t).view.emb y 1).val % 128 = (y 1).val; rw [hb1]; omega
  show (Pipeline.accAt (reset3 m c) (step3 m c) (16 * (t.val / 16)) (t.val % 16) _) ((cfg0.win 3).xinj (grid0.coords t) y) = G3 m c (((cfg0.win 3).blk t).view.emb y)
  unfold G3
  rw [dif_pos (by rw [hr]; have := t.isLt; have := Nat.div_add_mod t.val 16; omega), hl]
  have e : ∀ (b j : ℕ) (h : b + j < cfg0.N) (b' j' : ℕ) (h' : b' + j' < cfg0.N), b = b' → j = j' →
      Pipeline.accAt (reset3 m c) (step3 m c) b j h = Pipeline.accAt (reset3 m c) (step3 m c) b' j' h' := by
    intro b j h b' j' h' hb hj; subst hb; subst hj; rfl
  have hb : 16 * (t.val / 16) = 16 * run3Of (((cfg0.win 3).blk t).view.emb y) := by rw [hr]
  exact congrFun (e _ _ _ _ _ _ hb hm) _

/-- An index of the array is in point `t`'s block iff each coordinate is in the block's range on its axis. -/
theorem mem_blk3 (t : Fin cfg0.N) (i : S16x2048.Idx) :
    i ∈ ((cfg0.win 3).blk t).view.set ↔ ∀ a : Fin 2, win0_3.index t a * S16x128.size a ≤ (i a).val ∧ (i a).val < win0_3.index t a * S16x128.size a + S16x128.size a := by
  show i ∈ ((View.whole main_v2).slice (win0_3.rect t)).set ↔ _
  rw [View.set_slice_whole, Rect.mem_set_unit]
  exact Iff.rfl

/-- Every index is in some writing-back point's block. -/
theorem covered3 (i : S16x2048.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  obtain ⟨t, hft, ht⟩ := idx_onto3 ⟨(i 1).val / 128, by omega⟩
  have q0 : win0_3.index t (0 : Fin 2) = 0 := congrFun ht 0
  have q1 : win0_3.index t (1 : Fin 2) = (i 1).val / 128 := congrFun ht 1
  refine ⟨t, hft, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 128 ≤ (i 1).val ∧ (i 1).val < win0_3.index t (1 : Fin 2) * 128 + 128; omega

/-- The output array after the run. -/
theorem final3 (c : Dev nD) : (dats m 0 c).arrAt 3 cfg0.N = G3 m c :=
  (dats m 0 c).arrAt_eq_of_cover 3 _ (fun t hf => flushed3_eq m c t hf) (fun i => covered3 i)

end Cert.KernelIdeal.Hand

end
-- ==== Proof.LibRankThree.lean ====
/-
  Rank-three arrays read at an index: the layout operations that add, drop or stretch a unit axis of an
  [a, b, c] array, and its one-axis reductions at the ideal values.

  * casts: [a, b] → [a, b, 1], [a, 1] → [a, 1, 1], [a, c] → [a, 1, c], [c] → [1, 1, c] — each reads the operand at the
    index with the unit coordinates dropped;
  * broadcasts: [a, b, 1] → [a, b, c], [a, 1, 1] → [a, b, 1], [a, 1, c] → [a, b, c], [1, 1, c] → [a, b, c] — each reads
    the operand with the stretched coordinates set to 0;
  * sums at the ideal values: along the last axis ([a, b, c] → [a, b]) and along the middle axis ([a, b, c] → [a, c]),
    each the sum over that axis's coordinate; the maximum along the middle axis of an [a, b, 1] array, a fold of max
    from the accumulator's value.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRankThree

open Idealize.ShloMosaic Idealize.ShloMosaic.ValueIdx

variable {α : Type}

/-! ## Casts that add unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    rw [hu, hu']; omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, 1]` reads, at `(i, j, u)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## One-axis reductions at the ideal values -/

variable {φ : FTy}

/-- The sum of an `[a, b, c]` array along its last axis is, at `(i, j)`, the sum over `k` of the entries `(i, j, k)`. -/
theorem lastSum_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum of an `[a, b, c]` array along its middle axis is, at `(i, k)`, the sum over `j` of the entries `(i, j, k)`. -/
theorem midSum_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The maximum of an `[a, b, 1]` array along its middle axis is, at `(i, u)`, the fold of max from the accumulator's
    value over `j` of the entries `(i, j, 0)`. -/
theorem midMax_apply {a b : ℕ} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.maximumf.neutral φ hφ)
    (i : Fin a) (u : Fin 1) :
    multiReduction .maximumf [1] ⟨2, ![a, 1]⟩ src acc h hφ hacc (ix2 i u)
      = (Finset.univ : Finset (Fin b)).fold max (Ideal.ofBits φ acc) (fun j => src (ix3 i j (0 : Fin 1))) := by
  refine (Ideal.multiReduction_maximumf_single src acc h hφ hacc (ix2 i u)).trans ?_
  refine congrArg (fun f => (Finset.univ : Finset (Fin b)).fold max (Ideal.ofBits φ acc) f) (funext fun j => ?_)
  refine congrArg src (funext fun ax => Fin.ext ?_)
  have hu : u.val = 0 := by omega
  match ax with
  | ⟨0, _⟩ => rfl
  | ⟨1, _⟩ => rfl
  | ⟨2, _⟩ => exact hu

end Cert.LibRankThree

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.FieldMath.lean ====
/-
  The mathematics that joins the two programs.

  Both compute, per molecule b, the field at every atom j,

      field(b, j) = Σ_i  q(b, i) / d(b, i, j) · [i ≠ j],     d = √(|r_i − r_j|² + tiny) + eps,

  and the Coulomb energy; one program sums the field in tiles of 128 sources and takes the energy as
  ½ Σ_j q_j · field_j, the other sums the masked pair terms q_i q_j / d_ij over all pairs and halves.  Over the reals
  these agree by distributivity and the symmetry of the order of summation; the extended reals distribute only on
  finite values, so the statement is made for arrays of real numbers.
-/
import Idealize.ShloMosaic.PureOps.Ideal.Laws

noncomputable section

open scoped BigOperators

namespace Cert.FieldMath

open Idealize.ShloMosaic

/-! ## Sums -/

/-- A sum taken in `S` consecutive tiles of 128 is the sum over the first `128·S` indices. -/
theorem sum_tiles {M : Type*} [AddCommMonoid M] (f : ℕ → M) (S : ℕ) :
    ∑ s ∈ Finset.range S, ∑ ii : Fin 128, f (128 * s + ii.val) = ∑ i ∈ Finset.range (128 * S), f i := by
  induction S with
  | zero => simp
  | succ S ih =>
    rw [Finset.sum_range_succ, ih, Nat.mul_succ, Finset.sum_range_add, Fin.sum_univ_eq_sum_range (fun x => f (128 * S + x)) 128]

/-- The coercion of the reals into the extended reals goes through a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The literals -/

theorem zero_eq : Ideal.ofBits .f32 0x00000000#32 = ((0 : ℝ) : EReal) := by
  rw [Ideal.ofBits_zero_f32]; rfl

theorem one_eq : Ideal.ofBits .f32 0x3F800000#32 = ((1 : ℝ) : EReal) := by
  simp [Ideal.ofBits, Ideal.ieee]
  rw [← EReal.coe_mul, ← EReal.coe_one]
  congr 1
  norm_num

theorem half_eq : Ideal.ofBits .f32 0x3F000000#32 = ((1 / 2 : ℝ) : EReal) := by
  simp [Ideal.ofBits, Ideal.ieee]
  rw [← EReal.coe_mul]
  congr 1
  norm_num

theorem tiny_pos : ∃ r : ℝ, 0 < r ∧ Ideal.ofBits .f32 0x24E69595#32 = (r : EReal) := by
  refine ⟨_, ?_, by simp [Ideal.ofBits, Ideal.ieee]; rfl⟩
  positivity

theorem eps_pos : ∃ r : ℝ, 0 < r ∧ Ideal.ofBits .f32 0x3089705F#32 = (r : EReal) := by
  refine ⟨_, ?_, by simp [Ideal.ofBits, Ideal.ieee]; rfl⟩
  positivity

/-! ## One pair's term -/

/-- One source's contribution to one target's field, as the kernel computes it: charge · (1 / distance) · mask. -/
def contrib (p0 p1 p2 r0 r1 r2 q msk : EReal) : EReal :=
  q * Ideal.div (Ideal.ofBits .f32 0x3F800000#32)
      (Ideal.sqrt ((((p0 - r0) * (p0 - r0) + (p1 - r1) * (p1 - r1)) + (p2 - r2) * (p2 - r2)) + Ideal.ofBits .f32 0x24E69595#32)
        + Ideal.ofBits .f32 0x3089705F#32) * msk

/-- The distance as the reference computes it: the squared differences summed from zero over the three axes. -/
def distR (P : Fin 3 → EReal) (R : Fin 3 → EReal) : EReal :=
  Ideal.sqrt ((Ideal.ofBits .f32 0x00000000#32 + ∑ k : Fin 3, (P k - R k) * (P k - R k)) + Ideal.ofBits .f32 0x24E69595#32)
    + Ideal.ofBits .f32 0x3089705F#32

/-- The real distance. -/
def dist (tn ep : ℝ) (p r : Fin 3 → ℝ) : ℝ :=
  Real.sqrt ((p 0 - r 0) * (p 0 - r 0) + (p 1 - r 1) * (p 1 - r 1) + (p 2 - r 2) * (p 2 - r 2) + tn) + ep

theorem dist_pos {tn ep : ℝ} (htn : 0 < tn) (hep : 0 < ep) (p r : Fin 3 → ℝ) : 0 < dist tn ep p r := by
  unfold dist
  have := Real.sqrt_nonneg ((p 0 - r 0) * (p 0 - r 0) + (p 1 - r 1) * (p 1 - r 1) + (p 2 - r 2) * (p 2 - r 2) + tn)
  linarith

theorem distR_coe {tn ep : ℝ} (htn : 0 < tn) (hep : 0 < ep) (etn : Ideal.ofBits .f32 0x24E69595#32 = (tn : EReal))
    (eep : Ideal.ofBits .f32 0x3089705F#32 = (ep : EReal)) (p r : Fin 3 → ℝ) :
    distR (fun k => (p k : EReal)) (fun k => (r k : EReal)) = ((dist tn ep p r : ℝ) : EReal) := by
  unfold distR dist
  rw [etn, eep, zero_eq, Fin.sum_univ_three]
  simp only [← EReal.coe_sub, ← EReal.coe_mul, ← EReal.coe_add]
  rw [Ideal.sqrt_coe, if_neg (not_lt.mpr (by
    have h0 := mul_self_nonneg (p 0 - r 0); have h1 := mul_self_nonneg (p 1 - r 1); have h2 := mul_self_nonneg (p 2 - r 2)
    linarith)), ← EReal.coe_add]
  congr 2
  ring_nf

theorem contrib_coe {tn ep : ℝ} (htn : 0 < tn) (hep : 0 < ep) (etn : Ideal.ofBits .f32 0x24E69595#32 = (tn : EReal))
    (eep : Ideal.ofBits .f32 0x3089705F#32 = (ep : EReal)) (p r : Fin 3 → ℝ) (q z : ℝ) :
    contrib (p 0 : EReal) (p 1 : EReal) (p 2 : EReal) (r 0 : EReal) (r 1 : EReal) (r 2 : EReal) (q : EReal) (z : EReal)
      = ((q * (1 / dist tn ep p r) * z : ℝ) : EReal) := by
  unfold contrib dist
  rw [etn, eep, one_eq]
  simp only [← EReal.coe_sub, ← EReal.coe_mul, ← EReal.coe_add]
  rw [Ideal.sqrt_coe, if_neg (not_lt.mpr (by
    have h0 := mul_self_nonneg (p 0 - r 0); have h1 := mul_self_nonneg (p 1 - r 1); have h2 := mul_self_nonneg (p 2 - r 2)
    linarith)), ← EReal.coe_add]
  have hd := dist_pos htn hep p r
  unfold dist at hd
  rw [Ideal.div_coe (ne_of_gt hd), ← EReal.coe_mul, ← EReal.coe_mul, ← EReal.coe_mul]
  congr 1
  ring

/-- The reference's quotient by the distance, on reals. -/
theorem div_dist_coe {tn ep : ℝ} (htn : 0 < tn) (hep : 0 < ep) (p r : Fin 3 → ℝ) (x : ℝ) :
    Ideal.div (x : EReal) ((dist tn ep p r : ℝ) : EReal) = ((x / dist tn ep p r : ℝ) : EReal) := by
  rw [Ideal.div_coe (ne_of_gt (dist_pos htn hep p r)), ← EReal.coe_mul]
  congr 1
  ring

/-! ## The two sides on real arrays -/

section Laws

variable {tn ep : ℝ} (p : Fin 2048 → Fin 3 → ℝ) (q : Fin 2048 → ℝ)

/-- The mask: no self-interaction. -/
def msk (i j : Fin 2048) : ℝ := if i = j then 0 else 1

/-- The field at `j`, in tiles or not: one sum over the sources. -/
def fieldR (tn ep : ℝ) (j : Fin 2048) : ℝ := ∑ i : Fin 2048, q i * (1 / dist tn ep (p i) (p j)) * msk i j

/-- The field with the quotient taken first and the mask last, as the reference writes it. -/
theorem field_forms (j : Fin 2048) :
    ∑ i : Fin 2048, q i / dist tn ep (p i) (p j) * msk i j = fieldR p q tn ep j := by
  unfold fieldR
  exact Finset.sum_congr rfl fun i _ => by ring

/-- The energy two ways: half the charge-weighted sum of the field, and half the sum of the masked pair terms. -/
theorem energy_forms :
    1 / 2 * (0 + ∑ j : Fin 2048, q j * fieldR p q tn ep j)
      = 0 + (0 + ∑ ij : Fin 2048 × Fin 2048, msk ij.1 ij.2 * (q ij.1 * q ij.2 / dist tn ep (p ij.1) (p ij.2))) * (1 / 2) := by
  unfold fieldR
  rw [Fintype.sum_prod_type, Finset.sum_comm]
  simp only [zero_add, Finset.mul_sum]
  rw [Finset.sum_mul]
  refine Finset.sum_congr rfl fun j _ => ?_
  rw [Finset.sum_mul]
  refine Finset.sum_congr rfl fun i _ => ?_
  ring

end Laws

/-! ## The two sides as extended reals, on arrays of real numbers -/

section Bridge

variable {tn ep : ℝ} (htn : 0 < tn) (hep : 0 < ep) (etn : Ideal.ofBits .f32 0x24E69595#32 = (tn : EReal))
  (eep : Ideal.ofBits .f32 0x3089705F#32 = (ep : EReal)) (p : Fin 2048 → Fin 3 → ℝ) (q : Fin 2048 → ℝ)

include htn hep etn eep

/-- The kernel's field at `j`. -/
theorem kernel_field_coe (j : Fin 2048) (zK : Fin 2048 → EReal) (hzK : ∀ i, zK i = ((msk i j : ℝ) : EReal)) :
    (0 : EReal) + ∑ i : Fin 2048, contrib (p i 0 : EReal) (p i 1 : EReal) (p i 2 : EReal) (p j 0 : EReal) (p j 1 : EReal) (p j 2 : EReal) (q i : EReal) (zK i)
      = ((fieldR p q tn ep j : ℝ) : EReal) := by
  unfold fieldR
  rw [zero_add, coe_sum]
  refine Finset.sum_congr rfl fun i _ => ?_
  rw [hzK i, contrib_coe htn hep etn eep (p i) (p j) (q i) (msk i j)]

/-- The reference's field at `j`. -/
theorem ref_field_coe (j : Fin 2048) (zR : Fin 2048 → EReal) (hzR : ∀ i, zR i = ((msk i j : ℝ) : EReal)) :
    Ideal.ofBits .f32 0x00000000#32 + ∑ i : Fin 2048,
        Ideal.div (q i : EReal) (distR (fun k => (p i k : EReal)) (fun k => (p j k : EReal))) * zR i
      = ((fieldR p q tn ep j : ℝ) : EReal) := by
  rw [Ideal.ofBits_zero_f32, zero_add, ← field_forms p q j, coe_sum]
  refine Finset.sum_congr rfl fun i _ => ?_
  rw [hzR i, distR_coe htn hep etn eep, div_dist_coe htn hep, ← EReal.coe_mul]

/-- The kernel's energy. -/
theorem kernel_energy_coe (fld : Fin 2048 → EReal) (hfld : ∀ j, fld j = ((fieldR p q tn ep j : ℝ) : EReal)) :
    Ideal.ofBits .f32 0x3F000000#32 * (Ideal.ofBits .f32 0x00000000#32 + ∑ j : Fin 2048, (q j : EReal) * fld j)
      = ((1 / 2 * (0 + ∑ j : Fin 2048, q j * fieldR p q tn ep j) : ℝ) : EReal) := by
  rw [half_eq, zero_eq]
  simp only [hfld, ← EReal.coe_mul]
  rw [← coe_sum, ← EReal.coe_add, ← EReal.coe_mul]

/-- The reference's energy. -/
theorem ref_energy_coe (zR : Fin 2048 × Fin 2048 → EReal) (hzR : ∀ ij, zR ij = ((msk ij.1 ij.2 : ℝ) : EReal)) :
    Ideal.ofBits .f32 0x00000000#32 + ∑ _k : Fin 1,
        (Ideal.ofBits .f32 0x00000000#32 + ∑ ij : Fin 2048 × Fin 2048,
            zR ij * Ideal.div ((q ij.1 : EReal) * (q ij.2 : EReal)) (distR (fun k => (p ij.1 k : EReal)) (fun k => (p ij.2 k : EReal))))
          * Ideal.ofBits .f32 0x3F000000#32
      = ((0 + (0 + ∑ ij : Fin 2048 × Fin 2048, msk ij.1 ij.2 * (q ij.1 * q ij.2 / dist tn ep (p ij.1) (p ij.2))) * (1 / 2) : ℝ) : EReal) := by
  rw [Fin.sum_univ_one, half_eq, zero_eq]
  have hs : ∀ ij : Fin 2048 × Fin 2048,
      zR ij * Ideal.div ((q ij.1 : EReal) * (q ij.2 : EReal)) (distR (fun k => (p ij.1 k : EReal)) (fun k => (p ij.2 k : EReal)))
        = ((msk ij.1 ij.2 * (q ij.1 * q ij.2 / dist tn ep (p ij.1) (p ij.2)) : ℝ) : EReal) := fun ij => by
    rw [hzR ij, distR_coe htn hep etn eep, ← EReal.coe_mul, div_dist_coe htn hep, ← EReal.coe_mul]
  simp only [hs]
  rw [← coe_sum, ← EReal.coe_add, ← EReal.coe_mul, ← EReal.coe_add]

/-- THE FIELD: the two programs' values at `j` agree. -/
theorem field_bridge (j : Fin 2048) (zK zR : Fin 2048 → EReal) (hzK : ∀ i, zK i = ((msk i j : ℝ) : EReal)) (hzR : ∀ i, zR i = ((msk i j : ℝ) : EReal)) :
    (0 : EReal) + ∑ i : Fin 2048, contrib (p i 0 : EReal) (p i 1 : EReal) (p i 2 : EReal) (p j 0 : EReal) (p j 1 : EReal) (p j 2 : EReal) (q i : EReal) (zK i)
      = Ideal.ofBits .f32 0x00000000#32 + ∑ i : Fin 2048,
          Ideal.div (q i : EReal) (distR (fun k => (p i k : EReal)) (fun k => (p j k : EReal))) * zR i :=
  (kernel_field_coe htn hep etn eep p q j zK hzK).trans (ref_field_coe htn hep etn eep p q j zR hzR).symm

/-- THE ENERGY: the two programs' values agree. -/
theorem energy_bridge (fld : Fin 2048 → EReal) (hfld : ∀ j, fld j = ((fieldR p q tn ep j : ℝ) : EReal))
    (zR : Fin 2048 × Fin 2048 → EReal) (hzR : ∀ ij, zR ij = ((msk ij.1 ij.2 : ℝ) : EReal)) :
    Ideal.ofBits .f32 0x3F000000#32 * (Ideal.ofBits .f32 0x00000000#32 + ∑ j : Fin 2048, (q j : EReal) * fld j)
      = Ideal.ofBits .f32 0x00000000#32 + ∑ _k : Fin 1,
          (Ideal.ofBits .f32 0x00000000#32 + ∑ ij : Fin 2048 × Fin 2048,
              zR ij * Ideal.div ((q ij.1 : EReal) * (q ij.2 : EReal)) (distR (fun k => (p ij.1 k : EReal)) (fun k => (p ij.2 k : EReal))))
            * Ideal.ofBits .f32 0x3F000000#32 :=
  (kernel_energy_coe htn hep etn eep p q fld hfld).trans
    ((congrArg (fun r : ℝ => (r : EReal)) (energy_forms p q)).trans (ref_energy_coe htn hep etn eep p q zR hzR).symm)

end Bridge

end Cert.FieldMath

end
-- ==== Proof.KernelIdeal.Payload.lean ====
/-
  The body's arithmetic at one entry, at the exact values.

  For a block of 128 source atoms (positions `x0`, charges `x2`) and a block of 128 target atoms (positions `x1`),
  entry (b, jj) of the stored value is the accumulator's entry plus the sum over the sources ii of

      charge(b, ii) · (1 / (√(|r(b, ii) − r(b, jj)|² + tiny) + eps)) · [global index of ii ≠ global index of jj],

  the squared distance summed as (dx² + dy²) + dz².
-/
import proofs.«137582_j57114475102292_1_alg».proof.Proof.Gen.KernelIdeal.Skeleton
import proofs.«137582_j57114475102292_1_alg».proof.Proof.LibRankThree
import proofs.«137582_j57114475102292_1_alg».proof.Proof.LibRowTable
import Idealize.ShloMosaic.Lib.ValueIdx
import Idealize.ShloMosaic.Lib.ValueLayout
import Idealize.ShloMosaic.Lib.Pipeline.Value
import Idealize.ShloMosaic.PureOps.Ideal.Laws
import proofs.«137582_j57114475102292_1_alg».proof.Proof.FieldMath

noncomputable section

open scoped BigOperators

namespace Cert.KernelIdeal.Entry

open Cert.KernelIdeal Cert.KernelIdeal.Gen
open Idealize.ShloMosaic Idealize.ShloMosaic.ValueIdx Cert.LibRankThree Cert.LibRowTable Cert.FieldMath

variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

/-- Component `k` of the source positions, spread along the targets: at `(b, ii, jj)` it is `x (b, ii, k)`. -/
theorem srcComp (x : S16x128x3.Idx → α) (off : Fin 3 → Nat) (k : Fin 3) (hoff : ∀ a, off a = (![0, 0, k.val] : Fin 3 → Nat) a)
    (h2 : S16x128x3.Slices off S16x128x1) (h3 : S16x128x1.ShapeCasts S16x128)
    (h4 : S16x128.ShapeCasts S16x128x1) (h5 : S16x128x1.Broadcasts S16x128x128) (b : Fin 16) (ii jj : Fin 128) :
    broadcastTo S16x128x128 (shapeCast S16x128x1 (shapeCast S16x128 (extractStridedSlice S16x128x1 off x h2) h3) h4) h5 (ix3 b ii jj)
      = x (ix3 b ii k) := by
  rw [broadcastTo_ab1_abc_apply, shapeCast_ab_ab1_apply, shapeCast_ab1_ab_apply]
  refine extractStridedSlice_apply off x h2 (ix3 b ii (0 : Fin 1)) (ix3 b ii k) fun a => ?_
  rw [hoff a]
  match a with
  | ⟨0, _⟩ => show b.val = 0 + b.val; omega
  | ⟨1, _⟩ => show ii.val = 0 + ii.val; omega
  | ⟨2, _⟩ => show k.val = k.val + 0; omega

/-- Component `k` of the target positions, spread along the sources: at `(b, ii, jj)` it is `x (b, jj, k)`. -/
theorem tgtComp (x : S16x128x3.Idx → α) (off : Fin 3 → Nat) (k : Fin 3) (hoff : ∀ a, off a = (![0, 0, k.val] : Fin 3 → Nat) a)
    (h2 : S16x128x3.Slices off S16x128x1) (h3 : S16x128x1.ShapeCasts S16x128)
    (h4 : S16x128.ShapeCasts S16x1x128) (h5 : S16x1x128.Broadcasts S16x128x128) (b : Fin 16) (ii jj : Fin 128) :
    broadcastTo S16x128x128 (shapeCast S16x1x128 (shapeCast S16x128 (extractStridedSlice S16x128x1 off x h2) h3) h4) h5 (ix3 b ii jj)
      = x (ix3 b jj k) := by
  rw [broadcastTo_a1c_abc_apply, shapeCast_ac_a1c_apply, shapeCast_ab1_ab_apply]
  refine extractStridedSlice_apply off x h2 (ix3 b jj (0 : Fin 1)) (ix3 b jj k) fun a => ?_
  rw [hoff a]
  match a with
  | ⟨0, _⟩ => show b.val = 0 + b.val; omega
  | ⟨1, _⟩ => show jj.val = 0 + jj.val; omega
  | ⟨2, _⟩ => show k.val = k.val + 0; omega

/-- The charges of the sources, spread along the targets: at `(b, ii, jj)` it is `x (b, ii, 0)`. -/
theorem chargeComp (x : S16x128x1.Idx → α) (h3 : S16x128x1.ShapeCasts S16x128)
    (h4 : S16x128.ShapeCasts S16x128x1) (h5 : S16x128x1.Broadcasts S16x128x128) (b : Fin 16) (ii jj : Fin 128) :
    broadcastTo S16x128x128 (shapeCast S16x128x1 (shapeCast S16x128 x h3) h4) h5 (ix3 b ii jj)
      = x (ix3 b ii (0 : Fin 1)) := by
  rw [broadcastTo_ab1_abc_apply, shapeCast_ab_ab1_apply, shapeCast_ab1_ab_apply]

/-- The mask of the point `(arg0, arg1)`: one where the source's global index `arg1·128 + ii` differs from the
    target's `arg0·128 + jj` (as 32-bit words), zero where they agree. -/
def maskWord (arg0 arg1 : BitVec 32) (ii jj : Fin 128) : BitVec 32 :=
  (IntOp.cmpi .ne (IntOp.addi (Scalar.muli arg1 128#32) (BitVec.ofNat 32 (0 * 128 + ii.val))) (IntOp.addi (Scalar.muli arg0 128#32) (BitVec.ofNat 32 (0 * 128 + jj.val)))).setWidth 32

/-- The mask array at `(b, ii, jj)`. -/
theorem maskComp (arg0 arg1 : BitVec 32) (hi0 : S128x128.Iotas .tc 32 [0]) (hi1 : S128x128.Iotas .tc 32 [1]) (hlt : 1 < 32)
    (h1 : S128x128.ShapeCasts S1x128x128) (h2 : S1x128x128.Broadcasts S16x128x128) (b : Fin 16) (ii jj : Fin 128) :
    broadcastTo S16x128x128 (shapeCast S1x128x128 (sitofp (F := Ideal) .f32 (extui 32 (cmpi .ne (addi (broadcast S128x128 (Scalar.muli arg1 128#32)) (iota .tc S128x128 32 [0] hi0))
      (addi (broadcast S128x128 (Scalar.muli arg0 128#32)) (iota .tc S128x128 32 [1] hi1))) hlt)) h1) h2 (ix3 b ii jj)
      = (((maskWord arg0 arg1 ii jj).toInt : ℝ) : EReal) := by
  rw [broadcastTo_1bc_abc_apply, shapeCast_ab_1ab_apply]
  rfl

theorem sqrt_apply {s : Shape} {φ : FTy} (v : FVec Ideal s φ) (i : s.Idx) : sqrt v i = Ideal.sqrt (v i) := rfl

/-- The stored value at entry `(b, jj)`: the accumulator's entry plus the sum of the 128 sources' contributions. -/
theorem pay1_apply (arg0 arg1 : BitVec 32) (x0 x1 : Vec Ideal S16x128x3 .f32) (x2 : Vec Ideal S16x128x1 .f32) (acc : Vec Ideal S16x128 .f32)
    (b : Fin 16) (jj : Fin 128) :
    k0_pay1 (F := Ideal) arg0 arg1 (k0_pay3 x2) (k0_pay4 x0 x1) (Scalar.ofBits .f32 0x3089705F#32) acc (ix2 b jj)
      = acc (ix2 b jj) + ∑ ii : Fin 128, contrib (x0 (ix3 b ii 0)) (x0 (ix3 b ii 1)) (x0 (ix3 b ii 2)) (x1 (ix3 b jj 0)) (x1 (ix3 b jj 1)) (x1 (ix3 b jj 2))
          (x2 (ix3 b ii (0 : Fin 1))) (((maskWord arg0 arg1 ii jj).toInt : ℝ) : EReal) := by
  unfold k0_pay1 k0_pay3 k0_pay4
  simp only [addf_apply, shapeCast_self]
  refine congrArg (acc (ix2 b jj) + ·) ?_
  refine (midSum_apply _ _ _ _ _ b jj).trans (Finset.sum_congr rfl fun ii _ => ?_)
  simp only [mulf_apply, divf_apply, addf_apply, subf_apply, broadcast_apply, sqrt_apply]
  rw [chargeComp, maskComp]
  rw [srcComp x0 ![0, 0, 0] 0 (fun a => rfl), srcComp x0 ![0, 0, 1] 1 (fun a => rfl), srcComp x0 ![0, 0, 2] 2 (fun a => rfl),
    tgtComp x1 ![0, 0, 0] 0 (fun a => rfl), tgtComp x1 ![0, 0, 1] 1 (fun a => rfl), tgtComp x1 ![0, 0, 2] 2 (fun a => rfl)]
  rfl

end Cert.KernelIdeal.Entry

end
-- ==== Proof.KernelIdeal.FieldValue.lean ====
/-
  The output array at the exact values: entry (b, j) of the field array is the sum over all 2048 sources i of
  charge(b, i) · (1 / distance(b, i, j)) · [i ≠ j], the positions and charges read off the reshaped arguments.

  A window's block at point t = 16·J + s sits at sources 128·s … 128·s + 127 (windows 0 and 2) or at targets
  128·J … 128·J + 127 (window 1); the sixteen tiles of a run tile the 2048 sources.
-/
import proofs.«137582_j57114475102292_1_alg».proof.Proof.KernelIdeal.Fold
import proofs.«137582_j57114475102292_1_alg».proof.Proof.KernelIdeal.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.FieldMath Cert.KernelIdeal.Entry Idealize.ShloMosaic.ValueIdx
open scoped BigOperators

/-! ## Where the blocks sit -/

theorem idx_facts0 : ∀ t : Fin cfg0.N, win0_0.index t (0 : Fin 3) = 0 ∧ win0_0.index t (1 : Fin 3) = t.val % 16 ∧ win0_0.index t (2 : Fin 3) = 0 :=
  (by decide +kernel : ∀ t : Fin grid0.N, _)
theorem idx_facts1 : ∀ t : Fin cfg0.N, win0_1.index t (0 : Fin 3) = 0 ∧ win0_1.index t (1 : Fin 3) = t.val / 16 ∧ win0_1.index t (2 : Fin 3) = 0 :=
  (by decide +kernel : ∀ t : Fin grid0.N, _)
theorem idx_facts2 : ∀ t : Fin cfg0.N, win0_2.index t (0 : Fin 3) = 0 ∧ win0_2.index t (1 : Fin 3) = t.val % 16 ∧ win0_2.index t (2 : Fin 3) = 0 :=
  (by decide +kernel : ∀ t : Fin grid0.N, _)
theorem coords_facts : ∀ t : Fin cfg0.N, (grid0.coords t 0).val = t.val / 16 ∧ (grid0.coords t 1).val = t.val % 16 :=
  (by decide +kernel : ∀ t : Fin grid0.N, _)

theorem iblk0_apply (c : Dev nD) (t : Fin cfg0.N) (b : Fin 16) (ii : Fin 128) (k : Fin 3) (h : 128 * (t.val % 16) + ii.val < 2048) :
    iblk m c 0 t (ix3 b ii k) = V m c main_v0 (ix3 b ⟨128 * (t.val % 16) + ii.val, h⟩ k) := by
  unfold iblk
  rw [View.read_apply]
  obtain ⟨e0, e1, e2⟩ := idx_facts0 t
  show V m c main_v0 (((cfg0.win 0).blk t).view.emb (ix3 b ii k)) = _
  refine congrArg (V m c main_v0) (funext fun a => Fin.ext ?_)
  match a with
  | ⟨0, _⟩ => show win0_0.index t (0 : Fin 3) * 16 + 1 * b.val = b.val; omega
  | ⟨1, _⟩ => show win0_0.index t (1 : Fin 3) * 128 + 1 * ii.val = 128 * (t.val % 16) + ii.val; omega
  | ⟨2, _⟩ => show win0_0.index t (2 : Fin 3) * 3 + 1 * k.val = k.val; omega

theorem iblk1_apply (c : Dev nD) (t : Fin cfg0.N) (b : Fin 16) (jj : Fin 128) (k : Fin 3) (h : 128 * (t.val / 16) + jj.val < 2048) :
    iblk m c 1 t (ix3 b jj k) = V m c main_v0 (ix3 b ⟨128 * (t.val / 16) + jj.val, h⟩ k) := by
  unfold iblk
  rw [View.read_apply]
  obtain ⟨e0, e1, e2⟩ := idx_facts1 t
  show V m c main_v0 (((cfg0.win 1).blk t).view.emb (ix3 b jj k)) = _
  refine congrArg (V m c main_v0) (funext fun a => Fin.ext ?_)
  match a with
  | ⟨0, _⟩ => show win0_1.index t (0 : Fin 3) * 16 + 1 * b.val = b.val; omega
  | ⟨1, _⟩ => show win0_1.index t (1 : Fin 3) * 128 + 1 * jj.val = 128 * (t.val / 16) + jj.val; omega
  | ⟨2, _⟩ => show win0_1.index t (2 : Fin 3) * 3 + 1 * k.val = k.val; omega

theorem iblk2_apply (c : Dev nD) (t : Fin cfg0.N) (b : Fin 16) (ii : Fin 128) (u : Fin 1) (h : 128 * (t.val % 16) + ii.val < 2048) :
    iblk m c 2 t (ix3 b ii u) = V m c main_v1 (ix3 b ⟨128 * (t.val % 16) + ii.val, h⟩ (0 : Fin 1)) := by
  unfold iblk
  rw [View.read_apply]
  obtain ⟨e0, e1, e2⟩ := idx_facts2 t
  show V m c main_v1 (((cfg0.win 2).blk t).view.emb (ix3 b ii u)) = _
  refine congrArg (V m c main_v1) (funext fun a => Fin.ext ?_)
  have hu : u.val = 0 := by omega
  match a with
  | ⟨0, _⟩ => show win0_2.index t (0 : Fin 3) * 16 + 1 * b.val = b.val; omega
  | ⟨1, _⟩ => show win0_2.index t (1 : Fin 3) * 128 + 1 * ii.val = 128 * (t.val % 16) + ii.val; omega
  | ⟨2, _⟩ => show win0_2.index t (2 : Fin 3) * 1 + 1 * u.val = 0; omega

end Cert.KernelIdeal.Hand

/-! ## The fold at an entry, at the exact values -/

namespace Cert.KernelIdeal.Exact

open Cert.KernelIdeal Cert.KernelIdeal.Gen Cert.KernelIdeal.Hand Cert.FieldMath Cert.KernelIdeal.Entry
open Idealize.ShloMosaic Idealize.ShloMosaic.TcCoe Idealize.ShloMosaic.ValueIdx Idealize.SL.Sem
open scoped BigOperators

variable (m : (ℓ : Loc nD τ sig) → Buf (Elt Ideal) ℓ)

/-- The mask word of point (J, s) says whether the source's and the target's global indices differ. -/
theorem maskWord_toInt (J s : ℕ) (hJ : J < 16) (hs : s < 16) (ii jj : Fin 128) :
    (maskWord (BitVec.ofNat 32 J) (BitVec.ofNat 32 s) ii jj).toInt = if 128 * s + ii.val = 128 * J + jj.val then 0 else 1 := by
  have hii := ii.isLt
  have hjj := jj.isLt
  unfold maskWord
  show ((BitVec.ofBool (BitVec.ofNat 32 s * 128#32 + BitVec.ofNat 32 (0 * 128 + ii.val) != BitVec.ofNat 32 J * 128#32 + BitVec.ofNat 32 (0 * 128 + jj.val))).setWidth 32).toInt = _
  have hx : BitVec.ofNat 32 s * 128#32 + BitVec.ofNat 32 (0 * 128 + ii.val) = BitVec.ofNat 32 (128 * s + ii.val) := by
    apply BitVec.eq_of_toNat_eq
    simp only [BitVec.toNat_add, BitVec.toNat_mul, BitVec.toNat_ofNat]
    omega
  have hy : BitVec.ofNat 32 J * 128#32 + BitVec.ofNat 32 (0 * 128 + jj.val) = BitVec.ofNat 32 (128 * J + jj.val) := by
    apply BitVec.eq_of_toNat_eq
    simp only [BitVec.toNat_add, BitVec.toNat_mul, BitVec.toNat_ofNat]
    omega
  rw [hx, hy]
  by_cases h : 128 * s + ii.val = 128 * J + jj.val
  · rw [h, if_pos rfl]; simp
  · rw [if_neg h]
    have hne : BitVec.ofNat 32 (128 * s + ii.val) ≠ BitVec.ofNat 32 (128 * J + jj.val) := by
      intro he
      have := congrArg BitVec.toNat he
      simp only [BitVec.toNat_ofNat] at this
      omega
    have hb : (BitVec.ofNat 32 (128 * s + ii.val) != BitVec.ofNat 32 (128 * J + jj.val)) = true := by
      simpa using hne
    rw [hb]; decide

/-- The positions and the charges as the region finds them, indexed by naturals (zero off the array). -/
def Pn (c : Dev nD) (b : Fin 16) (i : ℕ) (k : Fin 3) : EReal := if h : i < 2048 then V m c main_v0 (ix3 b ⟨i, h⟩ k) else 0
def Qn (c : Dev nD) (b : Fin 16) (i : ℕ) : EReal := if h : i < 2048 then V m c main_v1 (ix3 b ⟨i, h⟩ (0 : Fin 1)) else 0
/-- The mask, on naturals. -/
def mskN (i j : ℕ) : EReal := (((if i = j then (0 : ℤ) else 1 : ℤ) : ℝ) : EReal)

/-- One pair's term. -/
def term (c : Dev nD) (b : Fin 16) (i j : ℕ) : EReal :=
  contrib (Pn m c b i 0) (Pn m c b i 1) (Pn m c b i 2) (Pn m c b j 0) (Pn m c b j 1) (Pn m c b j 2) (Qn m c b i) (mskN i j)

/-- The addend of point `n` at entry `i` of the block. -/
def addend (c : Dev nD) (n : ℕ) (i : S16x128.Idx) : EReal :=
  if h : n < cfg0.N then
    ∑ ii : Fin 128, contrib (iblk m c 0 ⟨n, h⟩ (ix3 (i 0) ii 0)) (iblk m c 0 ⟨n, h⟩ (ix3 (i 0) ii 1)) (iblk m c 0 ⟨n, h⟩ (ix3 (i 0) ii 2))
      (iblk m c 1 ⟨n, h⟩ (ix3 (i 0) (i 1) 0)) (iblk m c 1 ⟨n, h⟩ (ix3 (i 0) (i 1) 1)) (iblk m c 1 ⟨n, h⟩ (ix3 (i 0) (i 1) 2))
      (iblk m c 2 ⟨n, h⟩ (ix3 (i 0) ii (0 : Fin 1)))
      (((maskWord (BitVec.ofNat 32 (grid0.coords ⟨n, h⟩ 0).val) (BitVec.ofNat 32 (grid0.coords ⟨n, h⟩ 1).val) ii (i 1)).toInt : ℝ) : EReal)
  else 0

theorem reset3_apply (c : Dev nD) (n : ℕ) (h : n < cfg0.N) (i : S16x128.Idx) :
    reset3 (F := Ideal) m c n h i = 0 + addend m c n i := by
  obtain ⟨b, jj, rfl⟩ : ∃ (b : Fin 16) (jj : Fin 128), i = ix2 b jj := ⟨i 0, i 1, eq_ix2 i⟩
  unfold reset3 addend
  rw [dif_pos h, pay1_apply]
  refine congrArg₂ (· + ·) ?_ rfl
  show Ideal.ofBits .f32 0x00000000#32 = 0
  exact Ideal.ofBits_zero_f32

theorem step3_apply (c : Dev nD) (n : ℕ) (h : n < cfg0.N) (acc : Vec Ideal S16x128 .f32) (i : S16x128.Idx) :
    step3 (F := Ideal) m c n h acc i = acc i + addend m c n i := by
  obtain ⟨b, jj, rfl⟩ : ∃ (b : Fin 16) (jj : Fin 128), i = ix2 b jj := ⟨i 0, i 1, eq_ix2 i⟩
  unfold step3 addend
  rw [dif_pos h, pay1_apply]

/-- The addend of point 16·J + s: the sources of tile s against target 128·J + jj. -/
theorem addend_apply (c : Dev nD) (b : Fin 16) (J s : ℕ) (hJ : J < 16) (hs : s < 16) (jj : Fin 128) :
    addend m c (16 * J + s) (ix2 b jj) = ∑ ii : Fin 128, term m c b (128 * s + ii.val) (128 * J + jj.val) := by
  have hn : 16 * J + s < cfg0.N := by have hN : cfg0.N = 256 := N_0; omega
  have hjj := jj.isLt
  unfold addend
  rw [dif_pos hn]
  refine Finset.sum_congr rfl fun ii _ => ?_
  have hii := ii.isLt
  obtain ⟨c0, c1⟩ := coords_facts ⟨16 * J + s, hn⟩
  have hd : (16 * J + s) / 16 = J := by omega
  have hm : (16 * J + s) % 16 = s := by omega
  have hi : 128 * s + ii.val < 2048 := by omega
  have hj : 128 * J + jj.val < 2048 := by omega
  unfold term Pn Qn mskN
  rw [dif_pos hi, dif_pos hi, dif_pos hi, dif_pos hj, dif_pos hj, dif_pos hj, dif_pos hi]
  rw [iblk0_apply m c ⟨16 * J + s, hn⟩ b ii 0 (by show 128 * ((16 * J + s) % 16) + ii.val < 2048; omega),
    iblk0_apply m c ⟨16 * J + s, hn⟩ b ii 1 (by show 128 * ((16 * J + s) % 16) + ii.val < 2048; omega),
    iblk0_apply m c ⟨16 * J + s, hn⟩ b ii 2 (by show 128 * ((16 * J + s) % 16) + ii.val < 2048; omega),
    iblk1_apply m c ⟨16 * J + s, hn⟩ b jj 0 (by show 128 * ((16 * J + s) / 16) + jj.val < 2048; omega),
    iblk1_apply m c ⟨16 * J + s, hn⟩ b jj 1 (by show 128 * ((16 * J + s) / 16) + jj.val < 2048; omega),
    iblk1_apply m c ⟨16 * J + s, hn⟩ b jj 2 (by show 128 * ((16 * J + s) / 16) + jj.val < 2048; omega),
    iblk2_apply m c ⟨16 * J + s, hn⟩ b ii 0 (by show 128 * ((16 * J + s) % 16) + ii.val < 2048; omega)]
  have ec0 : (grid0.coords ⟨16 * J + s, hn⟩ 0).val = J := c0.trans hd
  have ec1 : (grid0.coords ⟨16 * J + s, hn⟩ 1).val = s := c1.trans hm
  rw [ec0, ec1, maskWord_toInt J s hJ hs ii jj]
  simp only [hd, hm]

/-- THE FIELD at entry (b, j): the sum over all sources. -/
theorem G3_apply (c : Dev nD) (b : Fin 16) (j : Fin 2048) :
    G3 (F := Ideal) m c (ix2 b j) = 0 + ∑ i ∈ Finset.range 2048, term m c b i j.val := by
  have hj := j.isLt
  have hb := b.isLt
  have hlt : 16 * (j.val / 128) + 15 < cfg0.N := by have hN : cfg0.N = 256 := N_0; omega
  unfold G3
  rw [dif_pos (show 16 * run3Of (ix2 b j) + 15 < cfg0.N from hlt)]
  have hloc : loc3Of (ix2 b j) = ix2 b ⟨j.val % 128, Nat.mod_lt _ (by decide)⟩ := by
    funext a; apply Fin.ext
    match a with
    | ⟨0, _⟩ => show b.val % 16 = b.val; omega
    | ⟨1, _⟩ => rfl
  rw [hloc]
  refine (Pipeline.accAt_add_apply (reset3 m c) (step3 m c) (fun _ => 0) (addend m c) (16 * (j.val / 128)) 15
    (fun h i => reset3_apply m c _ h i) (fun n h acc i _ _ => step3_apply m c n h acc i) 15 le_rfl hlt _).trans ?_
  refine congrArg (0 + ·) ?_
  refine Eq.trans ?_ (sum_tiles (fun i => term m c b i j.val) 16)
  refine Finset.sum_congr rfl fun s hs => ?_
  have hs' : s < 16 := Finset.mem_range.mp hs
  rw [addend_apply m c b (j.val / 128) s (by omega) hs' ⟨j.val % 128, Nat.mod_lt _ (by decide)⟩]
  refine Finset.sum_congr rfl fun ii _ => ?_
  show term m c b (128 * s + ii.val) (128 * (j.val / 128) + j.val % 128) = _
  rw [Nat.div_add_mod]

end Cert.KernelIdeal.Exact

end
-- ==== Proof.KernelIdeal.Results.lean ====
/-
  The kernel's two results at the exact values, as functions of the reshaped arguments: the field array re-laid as a
  column, and the energy ½ · Σ_j charge(b, j) · field(b, j).
-/
import proofs.«137582_j57114475102292_1_alg».proof.Proof.KernelIdeal.FieldValue
import Idealize.ShloMosaic.Lib.StableHlo.Run

set_option maxRecDepth 16384

noncomputable section

namespace Cert.KernelIdeal.Exact

open Cert.KernelIdeal Cert.KernelIdeal.Gen Cert.KernelIdeal.Hand Cert.FieldMath Cert.KernelIdeal.Entry
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## The region's entry contents -/

theorem V_v0 (c : Dev nD) : (V m c main_v0 : S16x2048x3.Idx → EReal)
    = shapeCast S16x2048x3 (m ((c.tc : Thread nD τ).loc main_arg0)) shapeCasts_S32768x3_S16x2048x3 := by
  dsimp only [V, V0]
  simp only [hostOps0, List.flatten_cons, List.flatten_nil, List.append_nil]
  after_results
  rfl

theorem V_v1 (c : Dev nD) : (V m c main_v1 : S16x2048x1.Idx → EReal)
    = shapeCast S16x2048x1 (m ((c.tc : Thread nD τ).loc main_arg1)) shapeCasts_S32768x1_S16x2048x1 := by
  dsimp only [V, V0]
  simp only [hostOps0, List.flatten_cons, List.flatten_nil, List.append_nil]
  after_results
  rfl

/-! ## The host operations after the region, over any contents -/

theorem tail_v3 (W : Valuation τ sig (Elt Ideal)) :
    (StableHlo.after ([hostOps1].flatten) W (Proc.devRef .tc main_v3) : S32768x1.Idx → EReal)
      = shapeCast S32768x1 (W (Proc.devRef .tc main_v2) : S16x2048.Idx → EReal) shapeCasts_S16x2048_S32768x1 := by
  simp only [hostOps1, List.flatten_cons, List.flatten_nil, List.append_nil]
  after_results
  rfl

theorem tail_v8 (W : Valuation τ sig (Elt Ideal)) :
    (StableHlo.after ([hostOps1].flatten) W (Proc.devRef .tc main_v8) : S16.Idx → EReal)
      = mulf (broadcastInDim S16 ![] bcast_S_S16 (constant (F := Ideal) S_ .f32 0x3F000000#32))
          (Host.reduceAdd (mulf (shapeCast S16x2048 (W (Proc.devRef .tc main_v1) : S16x2048x1.Idx → EReal) shapeCasts_S16x2048x1_S16x2048)
            (W (Proc.devRef .tc main_v2) : S16x2048.Idx → EReal)) (constant (F := Ideal) S_ .f32 0x00000000#32) reducesTo_S16x2048_S16_d1 h_S_) := by
  simp only [hostOps1, List.flatten_cons, List.flatten_nil, List.append_nil]
  after_results
  rfl

/-! ## Read at an index -/

/-- The field column at row r is the field array at (r / 2048, r % 2048). -/
theorem field_col_apply (G : S16x2048.Idx → EReal) (r : Fin 32768) (u : Fin 1) :
    shapeCast S32768x1 G shapeCasts_S16x2048_S32768x1 (ix2 r u)
      = G (ix2 (⟨r.val / 2048, by have := r.isLt; omega⟩ : Fin 16) (⟨r.val % 2048, Nat.mod_lt _ (by decide)⟩ : Fin 2048)) :=
  shapeCast_apply G shapeCasts_S16x2048_S32768x1 _ _ (by
    have hu : u.val = 0 := by omega
    rw [Shape.rowMajor_val_two, Shape.rowMajor_val_two]
    show r.val / 2048 * 2048 + r.val % 2048 = r.val * 1 + u.val
    omega)

/-- The energy of molecule b: half of zero plus the sum over its atoms of charge times field. -/
theorem energy_apply (Q : S16x2048x1.Idx → EReal) (G : S16x2048.Idx → EReal) (b : Fin 16) :
    mulf (broadcastInDim S16 ![] bcast_S_S16 (constant (F := Ideal) S_ .f32 0x3F000000#32))
        (Host.reduceAdd (mulf (shapeCast S16x2048 Q shapeCasts_S16x2048x1_S16x2048) G) (constant (F := Ideal) S_ .f32 0x00000000#32)
          reducesTo_S16x2048_S16_d1 h_S_) (ix1 b)
      = Ideal.ofBits .f32 0x3F000000#32 * (Ideal.ofBits .f32 0x00000000#32 + ∑ j : Fin 2048, Q (ix3 b j (0 : Fin 1)) * G (ix2 b j)) := by
  rw [mulf_apply]
  refine congrArg₂ (· * ·) ?_ ?_
  · exact broadcastInDim_apply _ bcast_S_S16 _ (ix1 b) (fun a => a.elim0) (fun a => a.elim0)
  · simp only [Host.reduceAdd, Ideal.hostReduceAdd_def]
    rw [Ideal.hostReduceAdd_single reducesTo_S16x2048_S16_d1 (by decide)]
    refine congrArg₂ (· + ·) rfl (Finset.sum_congr rfl fun (j : Fin 2048) _ => ?_)
    have e : (by decide : S16x2048.Reduces [1] S16).lift (ix1 b) j = ix2 b j :=
      funext fun a => Fin.ext (by match a with | ⟨0, _⟩ => rfl | ⟨1, _⟩ => rfl)
    rw [e]
    exact congrArg₂ (· * ·) (shapeCast_ab1_ab_apply Q shapeCasts_S16x2048x1_S16x2048 b j) rfl

end Cert.KernelIdeal.Exact

end
-- ==== Proof.RefValue.lean ====
/-
  The reference at the exact values, read at an index: the positions and charges of the reshaped arguments, the
  distance of a pair, the mask, and from them the field column and the energy.
-/
import proofs.«137582_j57114475102292_1_alg».proof.Proof.Gen.ReferenceIdeal.Read
import proofs.«137582_j57114475102292_1_alg».proof.Proof.FieldMath
import Idealize.ShloMosaic.Lib.ValueIdx

set_option maxRecDepth 16384

noncomputable section

namespace Cert.ReferenceIdeal.RefValue

open Cert.ReferenceIdeal Cert.ReferenceIdeal.Gen Cert.ReferenceIdeal.Read Cert.FieldMath
open Idealize.ShloMosaic Idealize.ShloMosaic.ValueIdx
open scoped BigOperators

/-- Row `b·2048 + i` of a 32768-row argument. -/
def row (b : Fin 16) (i : Fin 2048) : Fin 32768 := ⟨b.val * 2048 + i.val, by have := b.isLt; have := i.isLt; omega⟩

variable (x0 : (⟨S32768x3, .f32⟩ : BufTy).Contents (Elt Ideal)) (x1 : (⟨S32768x1, .f32⟩ : BufTy).Contents (Elt Ideal))

theorem pos_apply (b : Fin 16) (i : Fin 2048) (k : Fin 3) :
    val_main_v0 (F := Ideal) x0 (ix3 b i k) = x0 (ix2 (row b i) k) := by
  rw [val_main_v0_apply]
  refine congrArg x0 (funext fun a => Fin.ext ?_)
  have := b.isLt; have := i.isLt; have := k.isLt
  match a with
  | ⟨0, _⟩ => show ((b.val * 2048 + i.val) * 3 + k.val) / 3 = b.val * 2048 + i.val; omega
  | ⟨1, _⟩ => show ((b.val * 2048 + i.val) * 3 + k.val) % 3 = k.val; omega

theorem charge_apply (b : Fin 16) (i : Fin 2048) (u : Fin 1) :
    val_main_v1 (F := Ideal) x1 (ix3 b i u) = x1 (ix2 (row b i) (0 : Fin 1)) := by
  rw [val_main_v1_apply]
  refine congrArg x1 (funext fun a => Fin.ext ?_)
  have := b.isLt; have := i.isLt; have hu : u.val = 0 := by omega
  match a with
  | ⟨0, _⟩ => show ((b.val * 2048 + i.val) * 1 + u.val) / 1 = b.val * 2048 + i.val; omega
  | ⟨1, _⟩ => rfl

/-- The distance of the pair (i, j) of molecule b. -/
theorem dist_apply (b : Fin 16) (i j : Fin 2048) :
    val_main_v13 (F := Ideal) x0 (ix3 b i j) = distR (fun k => x0 (ix2 (row b i) k)) (fun k => x0 (ix2 (row b j) k)) := by
  rw [val_main_v13_apply, val_main_v11_apply, val_main_v10_apply, val_main_v8_apply, val_main_v12_apply, val_main_v9_apply]
  unfold distR
  simp only [Ideal.addf_def, Ideal.hostUnary_sqrt_def]
  refine congrArg₂ (· + ·) (congrArg Ideal.sqrt (congrArg₂ (· + ·) (congrArg₂ (· + ·) rfl (Finset.sum_congr rfl fun k _ => ?_)) rfl)) rfl
  rw [val_main_v7_apply, val_main_v6_apply, val_main_v4_apply, val_main_v5_apply, val_main_v2_apply, val_main_v3_apply]
  have e1 : idx_main_v2 (idx_main_v4 (idx_main_v8 (ix3 b i j) k)) = ix3 b i k :=
    funext fun a => Fin.ext (by match a with | ⟨0, _⟩ => rfl | ⟨1, _⟩ => rfl | ⟨2, _⟩ => rfl)
  have e2 : idx_main_v3 (idx_main_v5 (idx_main_v8 (ix3 b i j) k)) = ix3 b j k :=
    funext fun a => Fin.ext (by match a with | ⟨0, _⟩ => rfl | ⟨1, _⟩ => rfl | ⟨2, _⟩ => rfl)
  rw [e1, e2, pos_apply, pos_apply]
  rfl

/-- The mask word of the pair (i, j): one iff the indices agree. -/
def eqWord (i j : Fin 2048) : BitVec 1 := IntOp.cmpi .eq (IntOp.addi (BitVec.ofNat 32 i.val) (0#32)) (BitVec.ofNat 32 j.val)

theorem eqWord_toNat (i j : Fin 2048) : (eqWord i j).toNat = if i = j then 1 else 0 := by
  have hi := i.isLt; have hj := j.isLt
  unfold eqWord
  show (BitVec.ofBool (BitVec.ofNat 32 i.val + 0#32 == BitVec.ofNat 32 j.val)).toNat = _
  rw [BitVec.add_zero]
  by_cases h : i = j
  · subst h; simp
  · rw [if_neg h]
    have hne : BitVec.ofNat 32 i.val ≠ BitVec.ofNat 32 j.val := by
      intro he
      have := congrArg BitVec.toNat he
      simp only [BitVec.toNat_ofNat] at this
      exact h (Fin.ext (by omega))
    have hb : (BitVec.ofNat 32 i.val == BitVec.ofNat 32 j.val) = false := by simpa using hne
    rw [hb]; rfl

theorem mask_apply (i j : Fin 2048) :
    val_main_v22 (F := Ideal) (ix2 i j) = Ideal.ofBits .f32 0x3F800000#32 - (((eqWord i j).toNat : ℝ) : EReal) := by
  rw [val_main_v22_apply, val_main_v21_apply, val_main_v20_apply, val_main_v19_apply, val_main_v18_apply, val_main_v17_apply]
  rfl

end Cert.ReferenceIdeal.RefValue

end
-- ==== Proof.RefSums.lean ====
/-
  The reference's two results at an index: the field column and the energy.
-/
import proofs.«137582_j57114475102292_1_alg».proof.Proof.RefValue

set_option maxRecDepth 16384

noncomputable section

namespace Cert.ReferenceIdeal.RefValue

open Cert.ReferenceIdeal Cert.ReferenceIdeal.Gen Cert.ReferenceIdeal.Read Cert.FieldMath
open Idealize.ShloMosaic Idealize.ShloMosaic.ValueIdx
open scoped BigOperators

variable (x0 : (⟨S32768x3, .f32⟩ : BufTy).Contents (Elt Ideal)) (x1 : (⟨S32768x1, .f32⟩ : BufTy).Contents (Elt Ideal))

/-- The mask of the pair (i, j) wherever it is spread: at (·, i, j, ·). -/
theorem mask4_apply (b : Fin 16) (i j : Fin 2048) (u : Fin 1) :
    val_main_v41 (F := Ideal) (ix4 b i j u) = Ideal.ofBits .f32 0x3F800000#32 - (((eqWord i j).toNat : ℝ) : EReal) := by
  rw [val_main_v41_apply, val_main_v40_apply, val_main_v23_apply]
  have e : idx_main_v23 (idx_main_v40 (idx_main_v41 (ix4 b i j u))) = ix2 i j :=
    funext fun a => Fin.ext (by match a with | ⟨0, _⟩ => rfl | ⟨1, _⟩ => rfl)
  rw [e, mask_apply]

theorem mask4'_apply (b : Fin 16) (i j : Fin 2048) (u : Fin 1) :
    val_main_v31 (F := Ideal) (ix4 b i j u) = Ideal.ofBits .f32 0x3F800000#32 - (((eqWord i j).toNat : ℝ) : EReal) := by
  rw [val_main_v31_apply, val_main_v30_apply, val_main_v23_apply]
  have e : idx_main_v23 (idx_main_v30 (idx_main_v31 (ix4 b i j u))) = ix2 i j :=
    funext fun a => Fin.ext (by match a with | ⟨0, _⟩ => rfl | ⟨1, _⟩ => rfl)
  rw [e, mask_apply]

/-- The distance of the pair wherever it is spread. -/
theorem dist4_apply (b : Fin 16) (i j : Fin 2048) (u : Fin 1) :
    val_main_v14 (F := Ideal) x0 (ix4 b i j u) = distR (fun k => x0 (ix2 (row b i) k)) (fun k => x0 (ix2 (row b j) k)) := by
  rw [val_main_v14_apply]
  have e : idx_main_v14 (ix4 b i j u) = ix3 b i j :=
    funext fun a => Fin.ext (by match a with | ⟨0, _⟩ => rfl | ⟨1, _⟩ => rfl | ⟨2, _⟩ => rfl)
  rw [e, dist_apply]

/-- THE FIELD COLUMN at row r: zero plus the sum over the sources i of (charge_i / distance) · mask. -/
theorem field_ref_apply (r : Fin 32768) (u : Fin 1) :
    val_main_v44 (F := Ideal) x0 x1 (ix2 r u)
      = Ideal.ofBits .f32 0x00000000#32 + ∑ i : Fin 2048,
          Ideal.div (x1 (ix2 (row ⟨r.val / 2048, by have := r.isLt; omega⟩ i) (0 : Fin 1)))
            (distR (fun k => x0 (ix2 (row ⟨r.val / 2048, by have := r.isLt; omega⟩ i) k))
              (fun k => x0 (ix2 (row ⟨r.val / 2048, by have := r.isLt; omega⟩ ⟨r.val % 2048, Nat.mod_lt _ (by decide)⟩) k)))
          * (Ideal.ofBits .f32 0x3F800000#32 - (((eqWord i ⟨r.val % 2048, Nat.mod_lt _ (by decide)⟩).toNat : ℝ) : EReal)) := by
  have hr := r.isLt
  have hu : u.val = 0 := by omega
  rw [val_main_v44_apply]
  have e0 : idx_main_v44 (ix2 r u) = ix3 (⟨r.val / 2048, by omega⟩ : Fin 16) (⟨r.val % 2048, Nat.mod_lt _ (by decide)⟩ : Fin 2048) (0 : Fin 1) :=
    funext fun a => Fin.ext (by
      match a with
      | ⟨0, _⟩ => show (r.val * 1 + u.val) / 2048 = r.val / 2048; rw [hu]; omega
      | ⟨1, _⟩ => show (r.val * 1 + u.val) / 1 % 2048 = r.val % 2048; rw [hu]; omega
      | ⟨2, _⟩ => rfl)
  rw [e0, val_main_v43_apply]
  refine congrArg₂ (· + ·) rfl (Finset.sum_congr rfl fun (i : Fin 2048) _ => ?_)
  have e1 : idx_main_v43 (ix3 (⟨r.val / 2048, by omega⟩ : Fin 16) (⟨r.val % 2048, Nat.mod_lt _ (by decide)⟩ : Fin 2048) (0 : Fin 1)) i
      = ix4 (⟨r.val / 2048, by omega⟩ : Fin 16) i (⟨r.val % 2048, Nat.mod_lt _ (by decide)⟩ : Fin 2048) (0 : Fin 1) :=
    funext fun a => Fin.ext (by match a with | ⟨0, _⟩ => rfl | ⟨1, _⟩ => rfl | ⟨2, _⟩ => rfl | ⟨3, _⟩ => rfl)
  rw [e1, val_main_v42_apply, val_main_v39_apply, val_main_v38_apply, val_main_v37_apply, dist4_apply, mask4_apply]
  have e2 : idx_main_v37 (idx_main_v38 (ix4 (⟨r.val / 2048, by omega⟩ : Fin 16) i (⟨r.val % 2048, Nat.mod_lt _ (by decide)⟩ : Fin 2048) (0 : Fin 1)))
      = ix3 (⟨r.val / 2048, by omega⟩ : Fin 16) i (0 : Fin 1) :=
    funext fun a => Fin.ext (by match a with | ⟨0, _⟩ => rfl | ⟨1, _⟩ => rfl | ⟨2, _⟩ => rfl)
  rw [e2, charge_apply]
  rfl

set_option maxRecDepth 400000 in
/-- A sum over the two middle axes of a [16, 2048, 2048, 1] array into [16, 1]: the initial value plus the sum over
    all pairs. -/
theorem pairSum_apply (y : S16x2048x2048x1.Idx → EReal) (init : EReal) (b : Fin 16) (u : Fin 1) :
    Ideal.hostReduceAdd reducesTo_S16x2048x2048x1_S16x1_d1_2 y init (ix2 b u)
      = init + ∑ p : Fin 2048 × Fin 2048, y (ix4 b p.1 p.2 (0 : Fin 1)) := by
  unfold Ideal.hostReduceAdd
  refine congrArg (init + ·) ?_
  refine Finset.sum_nbij' (fun i => ((i 1 : Fin 2048), (i 2 : Fin 2048))) (fun p => ix4 b p.1 p.2 (0 : Fin 1)) ?_ ?_ ?_ ?_ ?_
  · intro a _; exact Finset.mem_univ _
  · intro p _
    refine Finset.mem_filter.mpr ⟨Finset.mem_univ _, funext fun a => Fin.ext ?_⟩
    have hu : u.val = 0 := by omega
    match a with
    | ⟨0, _⟩ => rfl
    | ⟨1, _⟩ => show (0 : ℕ) = u.val; omega
  · intro a ha
    have hd := (Finset.mem_filter.mp ha).2
    have h0 : (a 0).val = b.val := congrArg Fin.val (congrFun hd 0)
    have h3 : (a 3).val = 0 := by have h31 : (a 3).val < 1 := (a 3).isLt; omega
    refine funext fun d => Fin.ext ?_
    match d with
    | ⟨0, _⟩ => exact h0.symm
    | ⟨1, _⟩ => rfl
    | ⟨2, _⟩ => rfl
    | ⟨3, _⟩ => exact h3.symm
  · intro p _; rfl
  · intro a ha
    have hd := (Finset.mem_filter.mp ha).2
    have h0 : (a 0).val = b.val := congrArg Fin.val (congrFun hd 0)
    have h3 : (a 3).val = 0 := by have h31 : (a 3).val < 1 := (a 3).isLt; omega
    refine congrArg y (funext fun d => Fin.ext ?_)
    match d with
    | ⟨0, _⟩ => exact h0
    | ⟨1, _⟩ => rfl
    | ⟨2, _⟩ => rfl
    | ⟨3, _⟩ => exact h3

/-- THE ENERGY of molecule b: zero plus (zero plus the sum over all pairs of mask · (q_i q_j / distance)) · ½. -/
theorem energy_ref_apply (b : Fin 16) :
    val_main_v36 (F := Ideal) x0 x1 (ix1 b)
      = Ideal.ofBits .f32 0x00000000#32 + ∑ _k : Fin 1,
          (Ideal.ofBits .f32 0x00000000#32 + ∑ p : Fin 2048 × Fin 2048,
              (Ideal.ofBits .f32 0x3F800000#32 - (((eqWord p.1 p.2).toNat : ℝ) : EReal))
                * Ideal.div (x1 (ix2 (row b p.1) (0 : Fin 1)) * x1 (ix2 (row b p.2) (0 : Fin 1)))
                    (distR (fun k => x0 (ix2 (row b p.1) k)) (fun k => x0 (ix2 (row b p.2) k))))
            * Ideal.ofBits .f32 0x3F000000#32 := by
  rw [val_main_v36_apply]
  refine congrArg₂ (· + ·) rfl (Finset.sum_congr rfl fun (k : Fin 1) _ => ?_)
  have e0 : idx_main_v36 (ix1 b) k = ix2 b k :=
    funext fun a => Fin.ext (by match a with | ⟨0, _⟩ => rfl | ⟨1, _⟩ => rfl)
  rw [e0, val_main_v35_apply, val_main_v34_apply]
  refine congrArg₂ (· * ·) ?_ rfl
  unfold val_main_v33
  simp only [Host.reduceAdd, Ideal.hostReduceAdd_def]
  rw [pairSum_apply]
  refine congrArg₂ (· + ·) rfl (Finset.sum_congr rfl fun p _ => ?_)
  rw [val_main_v32_apply, val_main_v29_apply, val_main_v28_apply, val_main_v26_apply, val_main_v27_apply, val_main_v24_apply,
    val_main_v25_apply, dist4_apply, mask4'_apply]
  have e1 : idx_main_v24 (idx_main_v26 (ix4 b p.1 p.2 (0 : Fin 1))) = ix3 b p.1 (0 : Fin 1) :=
    funext fun a => Fin.ext (by match a with | ⟨0, _⟩ => rfl | ⟨1, _⟩ => rfl | ⟨2, _⟩ => rfl)
  have e2 : idx_main_v25 (idx_main_v27 (ix4 b p.1 p.2 (0 : Fin 1))) = ix3 b p.2 (0 : Fin 1) :=
    funext fun a => Fin.ext (by match a with | ⟨0, _⟩ => rfl | ⟨1, _⟩ => rfl | ⟨2, _⟩ => rfl)
  rw [e1, e2, charge_apply, charge_apply]
  rfl

end Cert.ReferenceIdeal.RefValue

end
-- ==== Proof.Finite.lean ====
/-
  From the precondition to the numbers: every entry of the two float arguments is a real number.

  The precondition is the conjunction of two "all entries have absolute value below +∞"; an extended real whose
  absolute value is below +∞ is neither infinity.
-/
import proofs.«137582_j57114475102292_1_alg».proof.Pre_finite_inputs
import proofs.«137582_j57114475102292_1_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Hand

open Cert.Pre_finite_inputs Idealize.ShloMosaic

instance : Subsingleton S_.Idx := ⟨fun a b => funext fun d => d.elim0⟩

/-- An extended real whose absolute value is below the f32 word of +∞ is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition both float arguments hold real numbers. -/
theorem finite_of_pre [Facts] (x0 : FVec Ideal S32768x3 .f32) (x1 : FVec Ideal S32768x1 .f32) (x2 : IVec S32768 32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.mp h0
  refine ⟨fun i => ?_, fun i => ?_⟩
  · exact real_of_abs_lt (x0 i) (Host.reduce_andi_all _ _ _ _ _ ha i)
  · exact real_of_abs_lt (x1 i) (Host.reduce_andi_all _ _ _ _ _ hb i)

end Cert.Pre_finite_inputs.Hand

end
-- ==== Proof.Bridge.lean ====
/-
  The two programs compute the same two results.

  Under the precondition the arguments hold real numbers; per molecule b the positions r(b, i) and charges q(b, i)
  are then real families, the kernel's field and energy and the reference's are the same real numbers (the laws of
  the mathematics module), hence the same extended reals.
-/
import proofs.«137582_j57114475102292_1_alg».proof.Proof.KernelIdeal.Results
import proofs.«137582_j57114475102292_1_alg».proof.Proof.RefSums
import proofs.«137582_j57114475102292_1_alg».proof.Proof.Finite

set_option maxRecDepth 16384

noncomputable section

namespace Cert.Bridge

open Cert.KernelIdeal Cert.KernelIdeal.Gen Cert.KernelIdeal.Hand Cert.KernelIdeal.Exact Cert.FieldMath Cert.KernelIdeal.Entry
open Cert.ReferenceIdeal.RefValue
open Idealize.ShloMosaic Idealize.ShloMosaic.TcCoe Idealize.ShloMosaic.ValueIdx Idealize.SL.Sem
open scoped BigOperators

variable (m : (ℓ : Loc nD τ sig) → Buf (Elt Ideal) ℓ)

/-- The positions the region finds are the rows of the first argument. -/
theorem Vpos (c : Dev nD) (b : Fin 16) (i : Fin 2048) (k : Fin 3) :
    V m c main_v0 (ix3 b i k) = m ((c.tc : Thread nD τ).loc main_arg0) (ix2 (row b i) k) := by
  rw [V_v0]
  exact pos_apply _ b i k

/-- The charges the region finds are the rows of the second argument. -/
theorem Vcharge (c : Dev nD) (b : Fin 16) (i : Fin 2048) (u : Fin 1) :
    V m c main_v1 (ix3 b i u) = m ((c.tc : Thread nD τ).loc main_arg1) (ix2 (row b i) (0 : Fin 1)) := by
  rw [V_v1]
  exact charge_apply _ b i u

theorem mskN_eq (i j : Fin 2048) : mskN i.val j.val = ((msk i j : ℝ) : EReal) := by
  unfold mskN msk
  by_cases h : i = j
  · subst h; simp
  · have h' : i.val ≠ j.val := fun e => h (Fin.ext e)
    simp [h, h']

theorem maskR_eq (i j : Fin 2048) :
    Ideal.ofBits .f32 0x3F800000#32 - (((eqWord i j).toNat : ℝ) : EReal) = ((msk i j : ℝ) : EReal) := by
  rw [one_eq, eqWord_toNat, ← EReal.coe_sub]
  unfold msk
  by_cases h : i = j
  · simp [h]
  · simp [h]

section Agree

variable (c : Dev nD)
  (pr : S32768x3.Idx → ℝ) (hpr : ∀ i, m ((c.tc : Thread nD τ).loc main_arg0) i = (pr i : EReal))
  (qr : S32768x1.Idx → ℝ) (hqr : ∀ i, m ((c.tc : Thread nD τ).loc main_arg1) i = (qr i : EReal))

include hpr hqr

/-- The kernel's field at (b, j) is the real field. -/
theorem kernel_field_real {tn ep : ℝ} (htn : 0 < tn) (hep : 0 < ep) (etn : Ideal.ofBits .f32 0x24E69595#32 = (tn : EReal))
    (eep : Ideal.ofBits .f32 0x3089705F#32 = (ep : EReal)) (b : Fin 16) (j : Fin 2048) :
    G3 (F := Ideal) m c (ix2 b j)
      = ((fieldR (fun i k => pr (ix2 (row b i) k)) (fun i => qr (ix2 (row b i) (0 : Fin 1))) tn ep j : ℝ) : EReal) := by
  rw [G3_apply, ← Fin.sum_univ_eq_sum_range (fun i => term m c b i j.val) 2048]
  refine Eq.trans ?_ (kernel_field_coe htn hep etn eep (fun i k => pr (ix2 (row b i) k)) (fun i => qr (ix2 (row b i) (0 : Fin 1))) j
    (fun i => mskN i.val j.val) (fun i => mskN_eq i j))
  refine congrArg (0 + ·) (Finset.sum_congr rfl fun i _ => ?_)
  unfold term Pn Qn
  rw [dif_pos i.isLt, dif_pos i.isLt, dif_pos i.isLt, dif_pos j.isLt, dif_pos j.isLt, dif_pos j.isLt, dif_pos i.isLt]
  rw [Vpos m c b i 0, Vpos m c b i 1, Vpos m c b i 2, Vpos m c b j 0, Vpos m c b j 1, Vpos m c b j 2, Vcharge m c b i 0]
  simp only [hpr, hqr]

/-- THE FIELD COLUMN: the kernel's is the reference's. -/
theorem field_agree :
    (shapeCast S32768x1 (G3 (F := Ideal) m c) shapeCasts_S16x2048_S32768x1 : S32768x1.Idx → EReal)
      = Cert.ReferenceIdeal.Read.val_main_v44 (F := Ideal) (m ((c.tc : Thread nD τ).loc main_arg0)) (m ((c.tc : Thread nD τ).loc main_arg1)) := by
  obtain ⟨tn, htn, etn⟩ := tiny_pos
  obtain ⟨ep, hep, eep⟩ := eps_pos
  funext idx
  obtain ⟨r, u, rfl⟩ : ∃ (r : Fin 32768) (u : Fin 1), idx = ix2 r u := ⟨idx 0, idx 1, eq_ix2 idx⟩
  rw [field_col_apply, kernel_field_real m c pr hpr qr hqr htn hep etn eep, field_ref_apply]
  refine (ref_field_coe htn hep etn eep (fun i k => pr (ix2 (row _ i) k)) (fun i => qr (ix2 (row _ i) (0 : Fin 1))) _
    (fun i => Ideal.ofBits .f32 0x3F800000#32 - (((eqWord i _).toNat : ℝ) : EReal)) (fun i => maskR_eq i _)).symm.trans ?_
  refine congrArg (_ + ·) (Finset.sum_congr rfl fun i _ => ?_)
  simp only [hpr, hqr]

set_option maxRecDepth 400000 in
/-- THE ENERGY: the kernel's is the reference's. -/
theorem energy_agree :
    (mulf (broadcastInDim S16 ![] bcast_S_S16 (constant (F := Ideal) S_ .f32 0x3F000000#32))
        (Host.reduceAdd (mulf (shapeCast S16x2048 (V m c main_v1 : S16x2048x1.Idx → EReal) shapeCasts_S16x2048x1_S16x2048)
          (G3 (F := Ideal) m c)) (constant (F := Ideal) S_ .f32 0x00000000#32) reducesTo_S16x2048_S16_d1 h_S_) : S16.Idx → EReal)
      = Cert.ReferenceIdeal.Read.val_main_v36 (F := Ideal) (m ((c.tc : Thread nD τ).loc main_arg0)) (m ((c.tc : Thread nD τ).loc main_arg1)) := by
  obtain ⟨tn, htn, etn⟩ := tiny_pos
  obtain ⟨ep, hep, eep⟩ := eps_pos
  funext idx
  obtain ⟨b, rfl⟩ : ∃ b : Fin 16, idx = ix1 b := ⟨idx 0, eq_ix1 idx⟩
  rw [energy_apply, energy_ref_apply]
  refine Eq.trans ?_ ((energy_bridge htn hep etn eep (fun i k => pr (ix2 (row b i) k)) (fun i => qr (ix2 (row b i) (0 : Fin 1)))
    (fun j => G3 (F := Ideal) m c (ix2 b j)) (fun j => kernel_field_real m c pr hpr qr hqr htn hep etn eep b j)
    (fun ij => Ideal.ofBits .f32 0x3F800000#32 - (((eqWord ij.1 ij.2).toNat : ℝ) : EReal)) (fun ij => maskR_eq ij.1 ij.2)).trans ?_)
  · refine congrArg (_ * ·) (congrArg (_ + ·) (Finset.sum_congr rfl fun j _ => ?_))
    rw [Vcharge, hqr]
  · refine congrArg (_ + ·) (Finset.sum_congr rfl fun _ _ => congrArg (· * _) (congrArg (_ + ·) (Finset.sum_congr rfl fun ij _ => ?_)))
    simp only [hpr, hqr]

end Agree

end Cert.Bridge

end
-- ==== Proof.lean ====
/-
  The certificate: the three frames, the (empty) idealization ledger, and the algebraic equivalence.

  Both kernel programs run to the end with their arguments unchanged (the pipeline's launch, the positions array
  dealt between the two windows that read it); the reference is a straight line of host operations.  At the exact
  values the kernel's two results — the field column and the energy — are the reference's, as extended reals, element
  by element, because under the precondition every input is a real number and the two are the same real expressions
  (distributivity and the order of summation).
-/
import proofs.«137582_j57114475102292_1_alg».proof.Defs
import proofs.«137582_j57114475102292_1_alg».proof.Proof.Gen.Kernel
import proofs.«137582_j57114475102292_1_alg».proof.Proof.Gen.KernelIdeal
import proofs.«137582_j57114475102292_1_alg».proof.Proof.Gen.ReferenceIdeal
import proofs.«137582_j57114475102292_1_alg».proof.Proof.Gen.Pre_finite_inputs
import proofs.«137582_j57114475102292_1_alg».proof.Proof.Kernel.Frame
import proofs.«137582_j57114475102292_1_alg».proof.Proof.KernelIdeal.Frame
import proofs.«137582_j57114475102292_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

section Kernel

open Cert.KernelIdeal Cert.KernelIdeal.Gen Cert.KernelIdeal.Hand Cert.KernelIdeal.Exact

variable (m : (ℓ : Loc nD τ sig) → Buf (Elt Ideal) ℓ)

/-- The energy buffer after the run, over the field array and the charges the region found. -/
theorem kernel_v8 (c : Dev nD) :
    (StableHlo.after ([hostOps1].flatten) (Wx m c) (Proc.devRef .tc main_v8) : S16.Idx → EReal)
      = mulf (broadcastInDim S16 ![] bcast_S_S16 (constant (F := Ideal) S_ .f32 0x3F000000#32))
          (Host.reduceAdd (mulf (shapeCast S16x2048 (V m c main_v1 : S16x2048x1.Idx → EReal) shapeCasts_S16x2048x1_S16x2048)
            (G3 (F := Ideal) m c)) (constant (F := Ideal) S_ .f32 0x00000000#32) reducesTo_S16x2048_S16_d1 h_S_) :=
  (tail_v8 (Wx m c)).trans (by rw [Wx_out, final3, Wx_of_ne m c main_v1 (by decide)])

/-- The field column after the run. -/
theorem kernel_v3 (c : Dev nD) :
    (StableHlo.after ([hostOps1].flatten) (Wx m c) (Proc.devRef .tc main_v3) : S32768x1.Idx → EReal)
      = shapeCast S32768x1 (G3 (F := Ideal) m c) shapeCasts_S16x2048_S32768x1 :=
  (tail_v3 (Wx m c)).trans (by rw [Wx_out, final3])

end Kernel

theorem algebraic : Cert.algebraic_KernelIdeal_ReferenceIdeal := by
  intro m ρ m' ρ' hpre hagree
  have hfin := fun c => Cert.Pre_finite_inputs.Hand.finite_of_pre _ _ _ (hpre c)
  choose pr hpr using fun c => (hfin c).1
  choose qr hqr using fun c => (hfin c).2
  refine ⟨fun c => Cert.ReferenceIdeal.Read.val_main_v36 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_, ?_, ?_⟩) (Cert.KernelIdeal.Hand.run_main (F := Ideal) m ρ)
    · exact (h c Cert.KernelIdeal.main_v8 (Cert.KernelIdeal.Hand.mem_rest _ rfl (by decide) (by decide) (by decide))).trans
        ((kernel_v8 m c).trans (Cert.Bridge.energy_agree m c (pr c) (hpr c) (qr c) (hqr c)))
    · exact (h c Cert.KernelIdeal.main_v3 (Cert.KernelIdeal.Hand.mem_rest _ rfl (by decide) (by decide) (by decide))).trans
        ((kernel_v3 m c).trans (Cert.Bridge.field_agree m c (pr c) (hpr c) (qr c) (hqr c)))
    · exact (h c Cert.KernelIdeal.main_arg0 (Cert.KernelIdeal.Hand.mem_rest _ rfl (by decide) (by decide) (by decide))).trans
        (Cert.KernelIdeal.Hand.kept_of_not_written m c _ (Cert.KernelIdeal.Hand.ops1_keep _ (by decide) (by decide) (by decide) (by decide) (by decide) (by decide) (by decide) (by decide))
          (Cert.KernelIdeal.Hand.ops0_keep _ (by decide) (by decide)) (by decide))
    · exact (h c Cert.KernelIdeal.main_arg1 (Cert.KernelIdeal.Hand.mem_rest _ rfl (by decide) (by decide) (by decide))).trans
        (Cert.KernelIdeal.Hand.kept_of_not_written m c _ (Cert.KernelIdeal.Hand.ops1_keep _ (by decide) (by decide) (by decide) (by decide) (by decide) (by decide) (by decide) (by decide))
          (Cert.KernelIdeal.Hand.ops0_keep _ (by decide) (by decide)) (by decide))
    · exact (h c Cert.KernelIdeal.main_arg2 (Cert.KernelIdeal.Hand.mem_rest _ rfl (by decide) (by decide) (by decide))).trans
        (Cert.KernelIdeal.Hand.kept_of_not_written m c _ (Cert.KernelIdeal.Hand.ops1_keep _ (by decide) (by decide) (by decide) (by decide) (by decide) (by decide) (by decide) (by decide))
          (Cert.KernelIdeal.Hand.ops0_keep _ (by decide) (by decide)) (by decide))
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v36_eq, (hagree c).1, (hagree c).2.1]
    · rw [(h c).2.1, Cert.ReferenceIdeal.Read.val_main_v44_eq, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
